-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64x2 .f32) (main_arg9 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64 .f32) (main_arg6 : FVec F S192x64 .f32) (main_arg7 : FVec F S64 .f32) (main_arg8 : FVec F S64x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x64 .f32 := Host.absf main_arg6
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S192x64 .f32) (main_arg7 : FVec F S64 .f32) (main_arg8 : FVec F S64x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1x64 : Shape := ⟨2, ![1, 64]⟩
abbrev S1600000x64 : Shape := ⟨2, ![1600000, 64]⟩
abbrev S100000x192 : Shape := ⟨2, ![100000, 192]⟩
abbrev S4000x192 : Shape := ⟨2, ![4000, 192]⟩
abbrev S100000x2 : Shape := ⟨2, ![100000, 2]⟩
abbrev S4000x2 : Shape := ⟨2, ![4000, 2]⟩
abbrev S1x2 : Shape := ⟨2, ![1, 2]⟩

abbrev nBuf : Space → Nat
  | .hbm => 62
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S100000x192, .f32⟩
  | .hbm, ⟨61, _⟩ => ⟨S100000x2, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x1, .f32⟩
  | .local _ .vmem, ⟨17, _⟩ => ⟨S4000x1, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x1, .f32⟩
  | .local _ .vmem, ⟨27, _⟩ => ⟨S4000x1, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x192, .f32⟩
  | .local _ .vmem, ⟨39, _⟩ => ⟨S4000x192, .f32⟩
  | .local _ .vmem, ⟨40, _⟩ => ⟨S4000x192, .f32⟩
  | .local _ .vmem, ⟨41, _⟩ => ⟨S4000x192, .f32⟩
  | .local _ .vmem, ⟨42, _⟩ => ⟨S192x64, .f32⟩
  | .local _ .vmem, ⟨43, _⟩ => ⟨S64, .f32⟩
  | .local _ .vmem, ⟨44, _⟩ => ⟨S64x2, .f32⟩
  | .local _ .vmem, ⟨45, _⟩ => ⟨S2, .f32⟩
  | .local _ .vmem, ⟨46, _⟩ => ⟨S4000x2, .f32⟩
  | .local _ .vmem, ⟨47, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v35 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  shapeCasts_S4000x64_S4000x64 : S4000x64.ShapeCasts S4000x64
  inb_S4000x192_S4000x64_0_0 : ∀ a, (![0, 0] : Fin 2 → Nat) a + S4000x64.size a ≤ S4000x192.size a
  inb_S4000x192_S4000x64_0_64 : ∀ a, (![0, 64] : Fin 2 → Nat) a + S4000x64.size a ≤ S4000x192.size a
  inb_S4000x192_S4000x64_0_128 : ∀ a, (![0, 128] : Fin 2 → Nat) a + S4000x64.size a ≤ S4000x192.size a
  inb_S4000x192_S4000x192_0_0 : ∀ a, (![0, 0] : Fin 2 → Nat) a + S4000x192.size a ≤ S4000x192.size a
  h_S4000x192 : 0 < S4000x192.numel
  shapeCasts_S4000x192_S4000x192 : S4000x192.ShapeCasts S4000x192
  inb_S192x64_S192x64_0_0 : ∀ a, (![0, 0] : Fin 2 → Nat) a + S192x64.size a ≤ S192x64.size a
  h_S192x64 : 0 < S192x64.numel
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000_S1600000x1_S1600000_n_0_0_1_wf : ScatterDims.WF S100000 S1600000x1 S1600000 [] [0] [0] 1
  dot_S4000x128_S128x64_S4000x64_1_0_0_1_n_n_wf : DotDims.WF S4000x128 S128x64 S4000x64 [1] [0] [0] [1] [] []
  dot_S4000x64_S64x64_S4000x64_1_0_0_1_n_n_wf : DotDims.WF S4000x64 S64x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x192_S192x64_S4000x64_1_0_0_1_n_n_wf : DotDims.WF S4000x192 S192x64 S4000x64 [1] [0] [0] [1] [] []
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .f32 = 32 ∨ (Rect.block (s := S100000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x192.size a ≤ S100000x192.size a
  hwx3_3 : ∀ i : grid3.Coords, EltTy.bits .f32 = 32 ∨ (Rect.block (s := S100000x192) S4000x192.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x192.size a ≤ S100000x192.size a
  hwx4_0 : ∀ i : grid4.Coords, EltTy.bits .f32 = 32 ∨ (Rect.block (s := S100000x192) S4000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x64.size a ≤ S192x64.size a
  hwx4_1 : ∀ i : grid4.Coords, EltTy.bits .f32 = 32 ∨ (Rect.block (s := S192x64) S192x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x2.size a ≤ S64x2.size a
  hwx4_3 : ∀ i : grid4.Coords, EltTy.bits .f32 = 32 ∨ (Rect.block (s := S64x2) S64x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2.size a ≤ S2.size a
  hwx4_4 : ∀ i : grid4.Coords, EltTy.bits .f32 = 32 ∨ (Rect.block (s := S2) S2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x2.size a ≤ S100000x2.size a
  hwx4_5 : ∀ i : grid4.Coords, EltTy.bits .f32 = 32 ∨ (Rect.block (s := S100000x2) S4000x2.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x192_S192x64_S4000x64_1_0_0_1_n_n : DotDims S4000x192 S192x64 S4000x64 where
  lhsContracting := [1]
  rhsContracting := [0]
  lhsNonContracting := [0]
  rhsNonContracting := [1]
  lhsBatch := []
  rhsBatch := []
  wf := dot_S4000x192_S192x64_S4000x64_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S4000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v12_0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23_0) S4000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23_1) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23_0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34_0) S4000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v34_1) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v12_0) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23_0) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34_0) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v35) S4000x192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v35) S4000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S64x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v36) S4000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x192 : Shape := ⟨2, ![100000, 192]⟩
abbrev S100000x2 : Shape := ⟨2, ![100000, 2]⟩
abbrev S1x2 : Shape := ⟨2, ![1, 2]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S192x64, .f32⟩
  | 7 => ⟨S64, .f32⟩
  | 8 => ⟨S64x2, .f32⟩
  | 9 => ⟨S2, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S100000x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S100000x64, .f32⟩
  | 67 => ⟨S100000x64, .f32⟩
  | 68 => ⟨S100000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S100000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S100000x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S_, .f32⟩
  | 126 => ⟨S100000x64, .f32⟩
  | 127 => ⟨S1600000x1, .i32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x64, .f32⟩
  | 12 => ⟨S100000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S100000x64, .f32⟩
  | 33 => ⟨S100000x64, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S100000x64, .f32⟩
  | 55 => ⟨S100000x192, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S100000x2, .f32⟩
  | 64 => ⟨S1x2, .f32⟩
  | 65 => ⟨S100000x2, .f32⟩
  | 66 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_cst : Ref sig .tc := ⟨.hbm, 32, rfl⟩
abbrev main_call1_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call2_cst : Ref sig .tc := ⟨.hbm, 39, rfl⟩
abbrev main_call2_v0 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_16 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_21 : Ref sig .tc := ⟨.hbm, 141, rfl⟩
abbrev main_v102 : Ref sig .tc := ⟨.hbm, 142, rfl⟩
abbrev main_v103 : Ref sig .tc := ⟨.hbm, 143, rfl⟩
abbrev main_c_22 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_23 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_24 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_25 : Ref sig .tc := ⟨.hbm, 163, rfl⟩
abbrev main_v120 : Ref sig .tc := ⟨.hbm, 164, rfl⟩
abbrev main_v121 : Ref sig .tc := ⟨.hbm, 165, rfl⟩
abbrev main_c_26 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_27 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_28 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_call3_cst : Ref sig .tc := ⟨.hbm, 188, rfl⟩
abbrev main_call3_v0 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x192_S192x64_S100000x64_1_0_0_1_n_n_wf : DotDims.WF S100000x192 S192x64 S100000x64 [1] [0] [0] [1] [] []
  dot_S100000x64_S64x2_S100000x2_1_0_0_1_n_n_wf : DotDims.WF S100000x64 S64x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.RunResult.lean ====
/-
  The idealized kernel's run, with its result named.

  The program is five tiled regions among stretches of host operations.  Every weakly fair execution terminates without
  a fault, and in the final state every unscoped buffer holds what the fold of the program over the launch memory
  gives for it: a host stretch applies its operations, a region leaves in each of its arrays what its write-backs
  leave and every other buffer as it found it.  Read at the result buffer this names the result; read at an argument
  it is the argument as launched.
-/
import proofs.«137019_j87943750353376_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of the program terminates, nothing faulting; the result buffer ends at the last
    region's exit contents of it, and the ten arguments end as launched. -/
theorem run_result : θ_run defs (onTc (τ := τ) (main (F := F))) ⟨m, fun _ => 0, ρ⟩ (fun r => ∀ c : Dev nD,
      r.2.mem ((c.tc : Thread nD τ).loc main_v36) = W10 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v36 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Hand

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«137019_j87943750353376_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.Spec.lean ====
/-
  THE SPECIFICATION: a polynomial graph filter over node features, as functions of whole arrays, generic in the
  number of rows.

  Every node carries a row of features.  The pipeline is: encode each row by two dense layers with a rectifier after
  each (`enc`); then twice replace the features `f` by `f - msg * d`, where `d` is a per-node scale kept as a column
  and `msg` is a per-node array computed elsewhere from `f * d` (`scaleCol`, `stepF`); combine the three feature
  snapshots with three fixed triples of weights and lay the three combinations side by side (`comb`, `hfin`); decode
  each row by a dense layer, a rectifier and a dense layer (`dec`).
  Each function acts on every row in the same way, and row `p` of a result depends only on row `p` of the operands
  (`*_rows`): so a block of rows of the result is the function of the blocks.  No sum is regrouped and nothing needs
  to be finite.
-/
import proofs.«137019_j87943750353376_1_alg».proof.Proof.LibRowBias

noncomputable section

open scoped BigOperators

namespace Cert.PolyFilter

open Idealize.ShloMosaic Idealize.ShloMosaic.ValueIdx Cert.DenseRow Cert.RowBias

/-! ## The functions -/

/-- Two dense layers, each followed by the rectifier. -/
def enc {R K H : ℕ} (x : (⟨2, ![R, K]⟩ : Shape).Idx → EReal) (w1 : (⟨2, ![K, H]⟩ : Shape).Idx → EReal)
    (b1 : (⟨1, ![H]⟩ : Shape).Idx → EReal) (w2 : (⟨2, ![H, H]⟩ : Shape).Idx → EReal) (b2 : (⟨1, ![H]⟩ : Shape).Idx → EReal) :
    (⟨2, ![R, H]⟩ : Shape).Idx → EReal :=
  actArr zf (layerArr (actArr zf (layerArr x w1 b1)) w2 b2)

/-- Every row `p` of `y` multiplied by the number the column `d` holds for row `p`. -/
def scaleCol {R N : ℕ} (y : (⟨2, ![R, N]⟩ : Shape).Idx → EReal) (d : (⟨2, ![R, 1]⟩ : Shape).Idx → EReal) :
    (⟨2, ![R, N]⟩ : Shape).Idx → EReal :=
  fun i => y i * d (ix2 (⟨(i 0).val, (i 0).isLt⟩ : Fin R) (0 : Fin 1))

/-- One step of the recursion: `f - msg * d`, the column `d` read per row. -/
def stepF {R N : ℕ} (f msg : (⟨2, ![R, N]⟩ : Shape).Idx → EReal) (d : (⟨2, ![R, 1]⟩ : Shape).Idx → EReal) :
    (⟨2, ![R, N]⟩ : Shape).Idx → EReal :=
  fun i => f i - msg i * d (ix2 (⟨(i 0).val, (i 0).isLt⟩ : Fin R) (0 : Fin 1))

/-- A weighted combination of three arrays, entry by entry, grouped as `(t0·f0 + t1·f1) + t2·f2`. -/
def comb {s : Shape} (t0 t1 t2 : EReal) (f0 f1 f2 : s.Idx → EReal) : s.Idx → EReal :=
  fun i => (t0 * f0 i + t1 * f1 i) + t2 * f2 i

/-- Three arrays of `N` columns side by side: column `k` of the result is column `k % N` of piece `k / N`. -/
def cat3 {R N M : ℕ} (hM : M = N + N + N) (a b c : (⟨2, ![R, N]⟩ : Shape).Idx → EReal) :
    (⟨2, ![R, M]⟩ : Shape).Idx → EReal :=
  fun i =>
    if h0 : (i 1).val < N then a (ix2 (⟨(i 0).val, (i 0).isLt⟩ : Fin R) (⟨(i 1).val, h0⟩ : Fin N))
    else if h1 : (i 1).val < N + N then b (ix2 (⟨(i 0).val, (i 0).isLt⟩ : Fin R) (⟨(i 1).val - N, by omega⟩ : Fin N))
    else c (ix2 (⟨(i 0).val, (i 0).isLt⟩ : Fin R) (⟨(i 1).val - (N + N), by have h2 : (i 1).val < M := (i 1).isLt; omega⟩ : Fin N))

/-- The three combinations side by side.  The nine weights are the values of the nine printed words; none is ever
    evaluated. -/
def hfin {R N M : ℕ} (hM : M = N + N + N) (θ : Fin 3 → Fin 3 → EReal) (f0 f1 f2 : (⟨2, ![R, N]⟩ : Shape).Idx → EReal) :
    (⟨2, ![R, M]⟩ : Shape).Idx → EReal :=
  cat3 hM (comb (θ 0 0) (θ 0 1) (θ 0 2) f0 f1 f2) (comb (θ 1 0) (θ 1 1) (θ 1 2) f0 f1 f2) (comb (θ 2 0) (θ 2 1) (θ 2 2) f0 f1 f2)

/-- A dense layer, the rectifier, a dense layer. -/
def dec {R K H C : ℕ} (y : (⟨2, ![R, K]⟩ : Shape).Idx → EReal) (w1 : (⟨2, ![K, H]⟩ : Shape).Idx → EReal)
    (b1 : (⟨1, ![H]⟩ : Shape).Idx → EReal) (w2 : (⟨2, ![H, C]⟩ : Shape).Idx → EReal) (b2 : (⟨1, ![C]⟩ : Shape).Idx → EReal) :
    (⟨2, ![R, C]⟩ : Shape).Idx → EReal :=
  layerArr (actArr zf (layerArr y w1 b1)) w2 b2

/-- The nine weights: the values of the words the programs print for them. -/
def θw : Fin 3 → Fin 3 → EReal := fun a b =>
  Ideal.ofBits .f32 ((![![0x40400000#32, 0xC0400000#32, 0x3F400000#32],
                        ![0x00000000#32, 0x40400000#32, 0xBFC00000#32],
                        ![0x00000000#32, 0x00000000#32, 0x3F400000#32]] : Fin 3 → Fin 3 → BitVec 32) a b)

end Cert.PolyFilter

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.RegionSteps.lean ====
/-
  The three regions whose bodies act entry by entry (the two recursion steps and the combination) read as functions
  of whole arrays.  Each region runs over 25 blocks of 4000 rows.  At a point t the body sees rows
  4000 t … 4000 t + 3999 of every operand, computes row p of its result from row p of those blocks only, and
  writes the result back to the same rows of the output array.  So what point t writes back is block t of the
  whole-array function, and since the 25 blocks cover all 100000 rows the output array ends holding that function.
-/
import proofs.«137019_j87943750353376_1_alg».proof.Proof.Gen.KernelIdeal.Frame
import proofs.«137019_j87943750353376_1_alg».proof.Proof.Spec
import proofs.«137019_j87943750353376_1_alg».proof.Proof.LibColumn
import Idealize.ShloMosaic.Lib.Pipeline.Value
import Idealize.ShloMosaic.Lib.ValueIdx

set_option maxRecDepth 16384

noncomputable section

namespace Cert.KernelIdeal.Hand

open Cert.KernelIdeal Cert.KernelIdeal.Gen Cert.PolyFilter Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem zeroOff : (![0, 0] : Fin 2 → Nat) = fun _ => 0 := funext fun a => by fin_cases a <;> rfl

/-- Row p of block t, as a row of the whole array. -/
def rowOf (t : Fin 25) (p : Fin 4000) : Fin 100000 := ⟨t.val * 4000 + p.val, by have := t.isLt; have := p.isLt; omega⟩

/-! ## What the step body of region 1 computes at an entry -/

/-- The first stored value of the step body at (p, q): f - msg * d, the column d read at row p. -/
theorem step1_pay_apply (x0 x1 : Vec Ideal S4000x64 .f32) (x2 : Vec Ideal S4000x1 .f32) (p : Fin 4000) (q : Fin 64) :
    k1_pay2 x0 x1 x2 (ix2 p q) = x0 (ix2 p q) - x1 (ix2 p q) * x2 (ix2 p (0 : Fin 1)) := by
  unfold k1_pay2 k1_pay1
  simp only [shapeCast_self]
  rw [subf_apply, mulf_apply, ColumnLayout.broadcastTo_a1_ab_apply]

/-- The second stored value of the step body at (p, q): the first one times d of row p. -/
theorem scaled1_pay_apply (x0 x1 : Vec Ideal S4000x64 .f32) (x2 : Vec Ideal S4000x1 .f32) (p : Fin 4000) (q : Fin 64) :
    k1_pay3 x0 x1 x2 (ix2 p q) = (x0 (ix2 p q) - x1 (ix2 p q) * x2 (ix2 p (0 : Fin 1))) * x2 (ix2 p (0 : Fin 1)) := by
  unfold k1_pay3
  rw [mulf_apply, step1_pay_apply]
  unfold k1_pay1
  simp only [shapeCast_self]
  rw [ColumnLayout.broadcastTo_a1_ab_apply]

/-! ## Region 1: where each block sits in its array -/

/-- The printed index maps over the 25 points: every row-tiled window is at block row t, block column 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- A point of region 1 as a block number below 25. -/
def pt1 (t : Fin cfg1.N) : Fin 25 := ⟨t.val, by have h : cfg1.N = 25 := N_1; have := t.isLt; omega⟩

/-- Entry (p, q) of block t of a 64-column window is entry (4000 t + p, q) of its array. -/
theorem emb1_0 (t : Fin cfg1.N) (p : Fin 4000) (q : Fin 64) :
    ((cfg1.win 0).blk t).view.emb (ix2 p q) = ix2 (rowOf (pt1 t) p) q := by
  obtain ⟨e00, e01, -⟩ := idx1 t
  funext a; apply Fin.ext
  match a with
  | ⟨0, _⟩ => show win1_0.index t (0 : Fin 2) * 4000 + 1 * p.val = t.val * 4000 + p.val; omega
  | ⟨1, _⟩ => show win1_0.index t (1 : Fin 2) * 64 + 1 * q.val = q.val; omega
theorem emb1_1 (t : Fin cfg1.N) (p : Fin 4000) (q : Fin 64) :
    ((cfg1.win 1).blk t).view.emb (ix2 p q) = ix2 (rowOf (pt1 t) p) q := by
  obtain ⟨-, -, e10, e11, -⟩ := idx1 t
  funext a; apply Fin.ext
  match a with
  | ⟨0, _⟩ => show win1_1.index t (0 : Fin 2) * 4000 + 1 * p.val = t.val * 4000 + p.val; omega
  | ⟨1, _⟩ => show win1_1.index t (1 : Fin 2) * 64 + 1 * q.val = q.val; omega
/-- Entry (p, 0) of block t of the column window is entry (4000 t + p, 0) of the column. -/
theorem emb1_2 (t : Fin cfg1.N) (p : Fin 4000) (u : Fin 1) :
    ((cfg1.win 2).blk t).view.emb (ix2 p u) = ix2 (rowOf (pt1 t) p) (0 : Fin 1) := by
  obtain ⟨-, -, -, -, e20, e21, -⟩ := idx1 t
  funext a; apply Fin.ext
  match a with
  | ⟨0, _⟩ => show win1_2.index t (0 : Fin 2) * 4000 + 1 * p.val = t.val * 4000 + p.val; omega
  | ⟨1, _⟩ => show win1_2.index t (1 : Fin 2) * 1 + 1 * u.val = 0; omega
theorem emb1_3 (t : Fin cfg1.N) (p : Fin 4000) (q : Fin 64) :
    ((cfg1.win 3).blk t).view.emb (ix2 p q) = ix2 (rowOf (pt1 t) p) q := by
  obtain ⟨-, -, -, -, -, -, e30, e31, -⟩ := idx1 t
  funext a; apply Fin.ext
  match a with
  | ⟨0, _⟩ => show win1_3.index t (0 : Fin 2) * 4000 + 1 * p.val = t.val * 4000 + p.val; omega
  | ⟨1, _⟩ => show win1_3.index t (1 : Fin 2) * 64 + 1 * q.val = q.val; omega
theorem emb1_4 (t : Fin cfg1.N) (p : Fin 4000) (q : Fin 64) :
    ((cfg1.win 4).blk t).view.emb (ix2 p q) = ix2 (rowOf (pt1 t) p) q := by
  obtain ⟨-, -, -, -, -, -, -, -, e40, e41⟩ := idx1 t
  funext a; apply Fin.ext
  match a with
  | ⟨0, _⟩ => show win1_4.index t (0 : Fin 2) * 4000 + 1 * p.val = t.val * 4000 + p.val; omega
  | ⟨1, _⟩ => show win1_4.index t (1 : Fin 2) * 64 + 1 * q.val = q.val; omega

/-- The three input blocks at a point, entry by entry, as entries of the arrays the region is entered with. -/
theorem iblk1_0_apply (c : Dev nD) (t : Fin cfg1.N) (p : Fin 4000) (q : Fin 64) :
    (iblk1 (F := Ideal) V c 0 t : Vec Ideal S4000x64 .f32) (ix2 p q) = (V c main_v12_0 : S100000x64.Idx → EReal) (ix2 (rowOf (pt1 t) p) q) := by
  unfold iblk1
  rw [View.read_apply]
  show V c main_v12_0 (((cfg1.win 0).blk t).view.emb (ix2 p q)) = _
  rw [emb1_0]
theorem iblk1_1_apply (c : Dev nD) (t : Fin cfg1.N) (p : Fin 4000) (q : Fin 64) :
    (iblk1 (F := Ideal) V c 1 t : Vec Ideal S4000x64 .f32) (ix2 p q) = (V c main_v22 : S100000x64.Idx → EReal) (ix2 (rowOf (pt1 t) p) q) := by
  unfold iblk1
  rw [View.read_apply]
  show V c main_v22 (((cfg1.win 1).blk t).view.emb (ix2 p q)) = _
  rw [emb1_1]
theorem iblk1_2_apply (c : Dev nD) (t : Fin cfg1.N) (p : Fin 4000) (u : Fin 1) :
    (iblk1 (F := Ideal) V c 2 t : Vec Ideal S4000x1 .f32) (ix2 p u) = (V c main_v11 : S100000x1.Idx → EReal) (ix2 (rowOf (pt1 t) p) (0 : Fin 1)) := by
  unfold iblk1
  rw [View.read_apply]
  show V c main_v11 (((cfg1.win 2).blk t).view.emb (ix2 p u)) = _
  rw [emb1_2]

/-! ## Region 1: what each point writes back, and the arrays after the region -/

/-- Point t writes block t of f - msg * d to the first output. -/
theorem flushed1_3_eq (c : Dev nD) (t : Fin cfg1.N) :
    (dat1 (F := Ideal) V c).flushed 3 t
      = ((cfg1.win 3).blk t).view.read (Elt Ideal) (stepF (R := 100000) (N := 64) (V c main_v12_0) (V c main_v22) (V c main_v11)) := by
  show (cfg1.win 3).cut (grid1.coords t) ((dat1 (F := Ideal) V c).after 3 t) = _
  rw [after1_3]
  unfold out1_3
  rw [View.canon_unit_zero zeroOff]
  simp only [View.ld_unit_zero (S := S4000x64) zeroOff, View.ld_unit_zero (S := S4000x1) zeroOff]
  funext j
  obtain ⟨p, q, rfl⟩ : ∃ (p : Fin 4000) (q : Fin 64), j = ix2 p q := ⟨j 0, j 1, eq_ix2 j⟩
  rw [View.read_apply]
  show k1_pay2 (iblk1 V c 0 t) (iblk1 V c 1 t) (iblk1 V c 2 t) (ix2 p q)
    = stepF (R := 100000) (N := 64) (V c main_v12_0) (V c main_v22) (V c main_v11) (((cfg1.win 3).blk t).view.emb (ix2 p q))
  rw [emb1_3]
  refine (step1_pay_apply (iblk1 V c 0 t) (iblk1 V c 1 t) (iblk1 V c 2 t) p q).trans ?_
  rw [iblk1_0_apply, iblk1_1_apply, iblk1_2_apply]
  rfl

/-- Point t writes block t of (f - msg * d) * d to the second output. -/
theorem flushed1_4_eq (c : Dev nD) (t : Fin cfg1.N) :
    (dat1 (F := Ideal) V c).flushed 4 t
      = ((cfg1.win 4).blk t).view.read (Elt Ideal)
          (scaleCol (R := 100000) (N := 64) (stepF (V c main_v12_0) (V c main_v22) (V c main_v11)) (V c main_v11)) := by
  show (cfg1.win 4).cut (grid1.coords t) ((dat1 (F := Ideal) V c).after 4 t) = _
  rw [after1_4]
  unfold out1_4
  rw [View.canon_unit_zero zeroOff]
  simp only [View.ld_unit_zero (S := S4000x64) zeroOff, View.ld_unit_zero (S := S4000x1) zeroOff]
  funext j
  obtain ⟨p, q, rfl⟩ : ∃ (p : Fin 4000) (q : Fin 64), j = ix2 p q := ⟨j 0, j 1, eq_ix2 j⟩
  rw [View.read_apply]
  show k1_pay3 (iblk1 V c 0 t) (iblk1 V c 1 t) (iblk1 V c 2 t) (ix2 p q)
    = scaleCol (R := 100000) (N := 64) (stepF (V c main_v12_0) (V c main_v22) (V c main_v11)) (V c main_v11) (((cfg1.win 4).blk t).view.emb (ix2 p q))
  rw [emb1_4]
  refine (scaled1_pay_apply (iblk1 V c 0 t) (iblk1 V c 1 t) (iblk1 V c 2 t) p q).trans ?_
  rw [iblk1_0_apply, iblk1_1_apply, iblk1_2_apply]
  rfl

/-- An index of a 64-column output is in point t's block iff each coordinate is in the block's range. -/
theorem mem_blk1_3 (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v23_0).slice (win1_3.rect t)).set ↔ _
  rw [View.set_slice_whole, Rect.mem_set_unit]
  exact Iff.rfl
theorem mem_blk1_4 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v23_1).slice (win1_4.rect t)).set ↔ _
  rw [View.set_slice_whole, Rect.mem_set_unit]
  exact Iff.rfl

/-- Row r of the array lies in the block of point r / 4000. -/
theorem cover1_3 (i : S100000x64.Idx) : ∃ t : Fin cfg1.N, (cfg1.win 3).flush t = true ∧ i ∈ ((cfg1.win 3).blk t).view.set := by
  have hN : cfg1.N = 25 := N_1
  have hi0 : (i 0).val < 100000 := (i 0).isLt
  have hi1 : (i 1).val < 64 := (i 1).isLt
  refine ⟨⟨(i 0).val / 4000, by omega⟩, flush1_3 _, ?_⟩
  rw [mem_blk1_3]
  obtain ⟨-, -, -, -, -, -, e30, e31, -⟩ := idx1 ⟨(i 0).val / 4000, by omega⟩
  intro a
  match a with
  | ⟨0, _⟩ => show win1_3.index _ (0 : Fin 2) * 4000 ≤ (i 0).val ∧ (i 0).val < win1_3.index _ (0 : Fin 2) * 4000 + 4000; rw [e30]; show (i 0).val / 4000 * 4000 ≤ (i 0).val ∧ (i 0).val < (i 0).val / 4000 * 4000 + 4000; omega
  | ⟨1, _⟩ => show win1_3.index _ (1 : Fin 2) * 64 ≤ (i 1).val ∧ (i 1).val < win1_3.index _ (1 : Fin 2) * 64 + 64; rw [e31]; omega
theorem cover1_4 (i : S100000x64.Idx) : ∃ t : Fin cfg1.N, (cfg1.win 4).flush t = true ∧ i ∈ ((cfg1.win 4).blk t).view.set := by
  have hN : cfg1.N = 25 := N_1
  have hi0 : (i 0).val < 100000 := (i 0).isLt
  have hi1 : (i 1).val < 64 := (i 1).isLt
  refine ⟨⟨(i 0).val / 4000, by omega⟩, flush1_4 _, ?_⟩
  rw [mem_blk1_4]
  obtain ⟨-, -, -, -, -, -, -, -, e40, e41⟩ := idx1 ⟨(i 0).val / 4000, by omega⟩
  intro a
  match a with
  | ⟨0, _⟩ => show win1_4.index _ (0 : Fin 2) * 4000 ≤ (i 0).val ∧ (i 0).val < win1_4.index _ (0 : Fin 2) * 4000 + 4000; rw [e40]; show (i 0).val / 4000 * 4000 ≤ (i 0).val ∧ (i 0).val < (i 0).val / 4000 * 4000 + 4000; omega
  | ⟨1, _⟩ => show win1_4.index _ (1 : Fin 2) * 64 ≤ (i 1).val ∧ (i 1).val < win1_4.index _ (1 : Fin 2) * 64 + 64; rw [e41]; omega

/-- After region 1 its first output holds f - msg * d of the arrays the region is entered with. -/
theorem final1_3 (c : Dev nD) :
    (dat1 (F := Ideal) V c).arrAt 3 cfg1.N = stepF (R := 100000) (N := 64) (V c main_v12_0) (V c main_v22) (V c main_v11) :=
  (dat1 (F := Ideal) V c).arrAt_eq_of_cover 3 _ (fun t _ => flushed1_3_eq V c t) cover1_3

/-- After region 1 its second output holds that array with every row scaled by d of the row. -/
theorem final1_4 (c : Dev nD) :
    (dat1 (F := Ideal) V c).arrAt 4 cfg1.N
      = scaleCol (R := 100000) (N := 64) (stepF (V c main_v12_0) (V c main_v22) (V c main_v11)) (V c main_v11) :=
  (dat1 (F := Ideal) V c).arrAt_eq_of_cover 4 _ (fun t _ => flushed1_4_eq V c t) cover1_4

/-! ## What the step body of region 2 computes at an entry -/

/-- The first stored value of the step body at (p, q): f - msg * d, the column d read at row p. -/
theorem step2_pay_apply (x0 x1 : Vec Ideal S4000x64 .f32) (x2 : Vec Ideal S4000x1 .f32) (p : Fin 4000) (q : Fin 64) :
    k2_pay2 x0 x1 x2 (ix2 p q) = x0 (ix2 p q) - x1 (ix2 p q) * x2 (ix2 p (0 : Fin 1)) := by
  unfold k2_pay2 k2_pay1
  simp only [shapeCast_self]
  rw [subf_apply, mulf_apply, ColumnLayout.broadcastTo_a1_ab_apply]

/-- The second stored value of the step body at (p, q): the first one times d of row p. -/
theorem scaled2_pay_apply (x0 x1 : Vec Ideal S4000x64 .f32) (x2 : Vec Ideal S4000x1 .f32) (p : Fin 4000) (q : Fin 64) :
    k2_pay3 x0 x1 x2 (ix2 p q) = (x0 (ix2 p q) - x1 (ix2 p q) * x2 (ix2 p (0 : Fin 1))) * x2 (ix2 p (0 : Fin 1)) := by
  unfold k2_pay3
  rw [mulf_apply, step2_pay_apply]
  unfold k2_pay1
  simp only [shapeCast_self]
  rw [ColumnLayout.broadcastTo_a1_ab_apply]

/-! ## Region 2: where each block sits in its array -/

/-- The printed index maps over the 25 points: every row-tiled window is at block row t, block column 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- A point of region 2 as a block number below 25. -/
def pt2 (t : Fin cfg2.N) : Fin 25 := ⟨t.val, by have h : cfg2.N = 25 := N_2; have := t.isLt; omega⟩

/-- Entry (p, q) of block t of a 64-column window is entry (4000 t + p, q) of its array. -/
theorem emb2_0 (t : Fin cfg2.N) (p : Fin 4000) (q : Fin 64) :
    ((cfg2.win 0).blk t).view.emb (ix2 p q) = ix2 (rowOf (pt2 t) p) q := by
  obtain ⟨e00, e01, -⟩ := idx2 t
  funext a; apply Fin.ext
  match a with
  | ⟨0, _⟩ => show win2_0.index t (0 : Fin 2) * 4000 + 1 * p.val = t.val * 4000 + p.val; omega
  | ⟨1, _⟩ => show win2_0.index t (1 : Fin 2) * 64 + 1 * q.val = q.val; omega
theorem emb2_1 (t : Fin cfg2.N) (p : Fin 4000) (q : Fin 64) :
    ((cfg2.win 1).blk t).view.emb (ix2 p q) = ix2 (rowOf (pt2 t) p) q := by
  obtain ⟨-, -, e10, e11, -⟩ := idx2 t
  funext a; apply Fin.ext
  match a with
  | ⟨0, _⟩ => show win2_1.index t (0 : Fin 2) * 4000 + 1 * p.val = t.val * 4000 + p.val; omega
  | ⟨1, _⟩ => show win2_1.index t (1 : Fin 2) * 64 + 1 * q.val = q.val; omega
/-- Entry (p, 0) of block t of the column window is entry (4000 t + p, 0) of the column. -/
theorem emb2_2 (t : Fin cfg2.N) (p : Fin 4000) (u : Fin 1) :
    ((cfg2.win 2).blk t).view.emb (ix2 p u) = ix2 (rowOf (pt2 t) p) (0 : Fin 1) := by
  obtain ⟨-, -, -, -, e20, e21, -⟩ := idx2 t
  funext a; apply Fin.ext
  match a with
  | ⟨0, _⟩ => show win2_2.index t (0 : Fin 2) * 4000 + 1 * p.val = t.val * 4000 + p.val; omega
  | ⟨1, _⟩ => show win2_2.index t (1 : Fin 2) * 1 + 1 * u.val = 0; omega
theorem emb2_3 (t : Fin cfg2.N) (p : Fin 4000) (q : Fin 64) :
    ((cfg2.win 3).blk t).view.emb (ix2 p q) = ix2 (rowOf (pt2 t) p) q := by
  obtain ⟨-, -, -, -, -, -, e30, e31, -⟩ := idx2 t
  funext a; apply Fin.ext
  match a with
  | ⟨0, _⟩ => show win2_3.index t (0 : Fin 2) * 4000 + 1 * p.val = t.val * 4000 + p.val; omega
  | ⟨1, _⟩ => show win2_3.index t (1 : Fin 2) * 64 + 1 * q.val = q.val; omega
theorem emb2_4 (t : Fin cfg2.N) (p : Fin 4000) (q : Fin 64) :
    ((cfg2.win 4).blk t).view.emb (ix2 p q) = ix2 (rowOf (pt2 t) p) q := by
  obtain ⟨-, -, -, -, -, -, -, -, e40, e41⟩ := idx2 t
  funext a; apply Fin.ext
  match a with
  | ⟨0, _⟩ => show win2_4.index t (0 : Fin 2) * 4000 + 1 * p.val = t.val * 4000 + p.val; omega
  | ⟨1, _⟩ => show win2_4.index t (1 : Fin 2) * 64 + 1 * q.val = q.val; omega

/-- The three input blocks at a point, entry by entry, as entries of the arrays the region is entered with. -/
theorem iblk2_0_apply (c : Dev nD) (t : Fin cfg2.N) (p : Fin 4000) (q : Fin 64) :
    (iblk2 (F := Ideal) V c 0 t : Vec Ideal S4000x64 .f32) (ix2 p q) = (V c main_v23_0 : S100000x64.Idx → EReal) (ix2 (rowOf (pt2 t) p) q) := by
  unfold iblk2
  rw [View.read_apply]
  show V c main_v23_0 (((cfg2.win 0).blk t).view.emb (ix2 p q)) = _
  rw [emb2_0]
theorem iblk2_1_apply (c : Dev nD) (t : Fin cfg2.N) (p : Fin 4000) (q : Fin 64) :
    (iblk2 (F := Ideal) V c 1 t : Vec Ideal S4000x64 .f32) (ix2 p q) = (V c main_v33 : S100000x64.Idx → EReal) (ix2 (rowOf (pt2 t) p) q) := by
  unfold iblk2
  rw [View.read_apply]
  show V c main_v33 (((cfg2.win 1).blk t).view.emb (ix2 p q)) = _
  rw [emb2_1]
theorem iblk2_2_apply (c : Dev nD) (t : Fin cfg2.N) (p : Fin 4000) (u : Fin 1) :
    (iblk2 (F := Ideal) V c 2 t : Vec Ideal S4000x1 .f32) (ix2 p u) = (V c main_v11 : S100000x1.Idx → EReal) (ix2 (rowOf (pt2 t) p) (0 : Fin 1)) := by
  unfold iblk2
  rw [View.read_apply]
  show V c main_v11 (((cfg2.win 2).blk t).view.emb (ix2 p u)) = _
  rw [emb2_2]

/-! ## Region 2: what each point writes back, and the arrays after the region -/

/-- Point t writes block t of f - msg * d to the first output. -/
theorem flushed2_3_eq (c : Dev nD) (t : Fin cfg2.N) :
    (dat2 (F := Ideal) V c).flushed 3 t
      = ((cfg2.win 3).blk t).view.read (Elt Ideal) (stepF (R := 100000) (N := 64) (V c main_v23_0) (V c main_v33) (V c main_v11)) := by
  show (cfg2.win 3).cut (grid2.coords t) ((dat2 (F := Ideal) V c).after 3 t) = _
  rw [after2_3]
  unfold out2_3
  rw [View.canon_unit_zero zeroOff]
  simp only [View.ld_unit_zero (S := S4000x64) zeroOff, View.ld_unit_zero (S := S4000x1) zeroOff]
  funext j
  obtain ⟨p, q, rfl⟩ : ∃ (p : Fin 4000) (q : Fin 64), j = ix2 p q := ⟨j 0, j 1, eq_ix2 j⟩
  rw [View.read_apply]
  show k2_pay2 (iblk2 V c 0 t) (iblk2 V c 1 t) (iblk2 V c 2 t) (ix2 p q)
    = stepF (R := 100000) (N := 64) (V c main_v23_0) (V c main_v33) (V c main_v11) (((cfg2.win 3).blk t).view.emb (ix2 p q))
  rw [emb2_3]
  refine (step2_pay_apply (iblk2 V c 0 t) (iblk2 V c 1 t) (iblk2 V c 2 t) p q).trans ?_
  rw [iblk2_0_apply, iblk2_1_apply, iblk2_2_apply]
  rfl

/-- Point t writes block t of (f - msg * d) * d to the second output. -/
theorem flushed2_4_eq (c : Dev nD) (t : Fin cfg2.N) :
    (dat2 (F := Ideal) V c).flushed 4 t
      = ((cfg2.win 4).blk t).view.read (Elt Ideal)
          (scaleCol (R := 100000) (N := 64) (stepF (V c main_v23_0) (V c main_v33) (V c main_v11)) (V c main_v11)) := by
  show (cfg2.win 4).cut (grid2.coords t) ((dat2 (F := Ideal) V c).after 4 t) = _
  rw [after2_4]
  unfold out2_4
  rw [View.canon_unit_zero zeroOff]
  simp only [View.ld_unit_zero (S := S4000x64) zeroOff, View.ld_unit_zero (S := S4000x1) zeroOff]
  funext j
  obtain ⟨p, q, rfl⟩ : ∃ (p : Fin 4000) (q : Fin 64), j = ix2 p q := ⟨j 0, j 1, eq_ix2 j⟩
  rw [View.read_apply]
  show k2_pay3 (iblk2 V c 0 t) (iblk2 V c 1 t) (iblk2 V c 2 t) (ix2 p q)
    = scaleCol (R := 100000) (N := 64) (stepF (V c main_v23_0) (V c main_v33) (V c main_v11)) (V c main_v11) (((cfg2.win 4).blk t).view.emb (ix2 p q))
  rw [emb2_4]
  refine (scaled2_pay_apply (iblk2 V c 0 t) (iblk2 V c 1 t) (iblk2 V c 2 t) p q).trans ?_
  rw [iblk2_0_apply, iblk2_1_apply, iblk2_2_apply]
  rfl

/-- An index of a 64-column output is in point t's block iff each coordinate is in the block's range. -/
theorem mem_blk2_3 (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v34_0).slice (win2_3.rect t)).set ↔ _
  rw [View.set_slice_whole, Rect.mem_set_unit]
  exact Iff.rfl
theorem mem_blk2_4 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v34_1).slice (win2_4.rect t)).set ↔ _
  rw [View.set_slice_whole, Rect.mem_set_unit]
  exact Iff.rfl

/-- Row r of the array lies in the block of point r / 4000. -/
theorem cover2_3 (i : S100000x64.Idx) : ∃ t : Fin cfg2.N, (cfg2.win 3).flush t = true ∧ i ∈ ((cfg2.win 3).blk t).view.set := by
  have hN : cfg2.N = 25 := N_2
  have hi0 : (i 0).val < 100000 := (i 0).isLt
  have hi1 : (i 1).val < 64 := (i 1).isLt
  refine ⟨⟨(i 0).val / 4000, by omega⟩, flush2_3 _, ?_⟩
  rw [mem_blk2_3]
  obtain ⟨-, -, -, -, -, -, e30, e31, -⟩ := idx2 ⟨(i 0).val / 4000, by omega⟩
  intro a
  match a with
  | ⟨0, _⟩ => show win2_3.index _ (0 : Fin 2) * 4000 ≤ (i 0).val ∧ (i 0).val < win2_3.index _ (0 : Fin 2) * 4000 + 4000; rw [e30]; show (i 0).val / 4000 * 4000 ≤ (i 0).val ∧ (i 0).val < (i 0).val / 4000 * 4000 + 4000; omega
  | ⟨1, _⟩ => show win2_3.index _ (1 : Fin 2) * 64 ≤ (i 1).val ∧ (i 1).val < win2_3.index _ (1 : Fin 2) * 64 + 64; rw [e31]; omega
theorem cover2_4 (i : S100000x64.Idx) : ∃ t : Fin cfg2.N, (cfg2.win 4).flush t = true ∧ i ∈ ((cfg2.win 4).blk t).view.set := by
  have hN : cfg2.N = 25 := N_2
  have hi0 : (i 0).val < 100000 := (i 0).isLt
  have hi1 : (i 1).val < 64 := (i 1).isLt
  refine ⟨⟨(i 0).val / 4000, by omega⟩, flush2_4 _, ?_⟩
  rw [mem_blk2_4]
  obtain ⟨-, -, -, -, -, -, -, -, e40, e41⟩ := idx2 ⟨(i 0).val / 4000, by omega⟩
  intro a
  match a with
  | ⟨0, _⟩ => show win2_4.index _ (0 : Fin 2) * 4000 ≤ (i 0).val ∧ (i 0).val < win2_4.index _ (0 : Fin 2) * 4000 + 4000; rw [e40]; show (i 0).val / 4000 * 4000 ≤ (i 0).val ∧ (i 0).val < (i 0).val / 4000 * 4000 + 4000; omega
  | ⟨1, _⟩ => show win2_4.index _ (1 : Fin 2) * 64 ≤ (i 1).val ∧ (i 1).val < win2_4.index _ (1 : Fin 2) * 64 + 64; rw [e41]; omega

/-- After region 2 its first output holds f - msg * d of the arrays the region is entered with. -/
theorem final2_3 (c : Dev nD) :
    (dat2 (F := Ideal) V c).arrAt 3 cfg2.N = stepF (R := 100000) (N := 64) (V c main_v23_0) (V c main_v33) (V c main_v11) :=
  (dat2 (F := Ideal) V c).arrAt_eq_of_cover 3 _ (fun t _ => flushed2_3_eq V c t) cover2_3

/-- After region 2 its second output holds that array with every row scaled by d of the row. -/
theorem final2_4 (c : Dev nD) :
    (dat2 (F := Ideal) V c).arrAt 4 cfg2.N
      = scaleCol (R := 100000) (N := 64) (stepF (V c main_v23_0) (V c main_v33) (V c main_v11)) (V c main_v11) :=
  (dat2 (F := Ideal) V c).arrAt_eq_of_cover 4 _ (fun t _ => flushed2_4_eq V c t) cover2_4

/-! ## Three arrays side by side, read at an entry -/

/-- The side-by-side combination at (p, k): the combination whose third of the columns k falls in, at column k
    counted inside that third. -/
theorem hfin_apply {R N M : ℕ} (hM : M = N + N + N) (θ : Fin 3 → Fin 3 → EReal)
    (f0 f1 f2 : (⟨2, ![R, N]⟩ : Shape).Idx → EReal) (p : Fin R) (k : Fin M) :
    hfin hM θ f0 f1 f2 (ix2 p k)
      = if h0 : k.val < N then comb (θ 0 0) (θ 0 1) (θ 0 2) f0 f1 f2 (ix2 p (⟨k.val, h0⟩ : Fin N))
        else if h1 : k.val < N + N then comb (θ 1 0) (θ 1 1) (θ 1 2) f0 f1 f2 (ix2 p (⟨k.val - N, by omega⟩ : Fin N))
        else comb (θ 2 0) (θ 2 1) (θ 2 2) f0 f1 f2 (ix2 p (⟨k.val - (N + N), by have := k.isLt; omega⟩ : Fin N)) := rfl

/-- Row p of the side-by-side combination depends only on row p of the three arrays: two triples of arrays, of any
    two row counts, that agree on a row of each give the same row of the result. -/
theorem hfin_row_congr {R R' N M : ℕ} (hM : M = N + N + N) (θ : Fin 3 → Fin 3 → EReal)
    (f0 f1 f2 : (⟨2, ![R, N]⟩ : Shape).Idx → EReal) (g0 g1 g2 : (⟨2, ![R', N]⟩ : Shape).Idx → EReal)
    (p : Fin R) (p' : Fin R')
    (h0 : ∀ q : Fin N, f0 (ix2 p q) = g0 (ix2 p' q)) (h1 : ∀ q : Fin N, f1 (ix2 p q) = g1 (ix2 p' q))
    (h2 : ∀ q : Fin N, f2 (ix2 p q) = g2 (ix2 p' q)) (k : Fin M) :
    hfin hM θ f0 f1 f2 (ix2 p k) = hfin hM θ g0 g1 g2 (ix2 p' k) := by
  rw [hfin_apply, hfin_apply]
  unfold comb
  split_ifs <;> rw [h0, h1, h2]

/-! ## What the combination body computes at an entry -/

/-- The three stored values of the combination body are the three weighted combinations of its three blocks. -/
theorem comb0_pay_apply (x0 x1 x2 : Vec Ideal S4000x64 .f32) (i : S4000x64.Idx) :
    k3_pay4 x0 x1 x2 i = comb (θw 0 0) (θw 0 1) (θw 0 2) x0 x1 x2 i := by
  unfold k3_pay4 k3_pay1 k3_pay2 k3_pay3
  simp only [shapeCast_self]
  rfl
theorem comb1_pay_apply (x0 x1 x2 : Vec Ideal S4000x64 .f32) (i : S4000x64.Idx) :
    k3_pay5 x0 x1 x2 i = comb (θw 1 0) (θw 1 1) (θw 1 2) x0 x1 x2 i := by
  unfold k3_pay5 k3_pay1 k3_pay2 k3_pay3
  simp only [shapeCast_self]
  rfl
theorem comb2_pay_apply (x0 x1 x2 : Vec Ideal S4000x64 .f32) (i : S4000x64.Idx) :
    k3_pay6 x0 x1 x2 i = comb (θw 2 0) (θw 2 1) (θw 2 2) x0 x1 x2 i := by
  unfold k3_pay6 k3_pay1 k3_pay2 k3_pay3
  simp only [shapeCast_self]
  rfl

/-- Where the three stores of the combination body put entry (p, q) of their payload: same row, column q, 64 + q, 128 + q. -/
theorem store0_emb (p : Fin 4000) (q : Fin 64) : r3_1.emb (ix2 p q) = ix2 p (⟨q.val, by omega⟩ : Fin 192) := by
  funext a; apply Fin.ext
  match a with
  | ⟨0, _⟩ => show 0 + 1 * p.val = p.val; omega
  | ⟨1, _⟩ => show 0 + 1 * q.val = q.val; omega
theorem store1_emb (p : Fin 4000) (q : Fin 64) : r3_2.emb (ix2 p q) = ix2 p (⟨64 + q.val, by omega⟩ : Fin 192) := by
  funext a; apply Fin.ext
  match a with
  | ⟨0, _⟩ => show 0 + 1 * p.val = p.val; omega
  | ⟨1, _⟩ => show 64 + 1 * q.val = 64 + q.val; omega
theorem store2_emb (p : Fin 4000) (q : Fin 64) : r3_3.emb (ix2 p q) = ix2 p (⟨128 + q.val, by omega⟩ : Fin 192) := by
  funext a; apply Fin.ext
  match a with
  | ⟨0, _⟩ => show 0 + 1 * p.val = p.val; omega
  | ⟨1, _⟩ => show 128 + 1 * q.val = 128 + q.val; omega

/-- Each store's payload is its rectangle of the side-by-side combination of the three blocks. -/
theorem store0_piece (x0 x1 x2 : Vec Ideal S4000x64 .f32) (x : S4000x64.Idx) :
    k3_pay4 x0 x1 x2 x = hfin (R := 4000) (N := 64) (M := 192) rfl θw x0 x1 x2 (r3_1.emb x) := by
  obtain ⟨p, q, rfl⟩ : ∃ (p : Fin 4000) (q : Fin 64), x = ix2 p q := ⟨x 0, x 1, eq_ix2 x⟩
  rw [store0_emb, hfin_apply, dif_pos (show q.val < 64 from q.isLt), comb0_pay_apply]
theorem store1_piece (x0 x1 x2 : Vec Ideal S4000x64 .f32) (x : S4000x64.Idx) :
    k3_pay5 x0 x1 x2 x = hfin (R := 4000) (N := 64) (M := 192) rfl θw x0 x1 x2 (r3_2.emb x) := by
  obtain ⟨p, q, rfl⟩ : ∃ (p : Fin 4000) (q : Fin 64), x = ix2 p q := ⟨x 0, x 1, eq_ix2 x⟩
  have hq : q.val < 64 := q.isLt
  rw [store1_emb, hfin_apply, dif_neg (show ¬ (64 + q.val < 64) by omega), dif_pos (show 64 + q.val < 64 + 64 by omega), comb1_pay_apply]
  congr 2
  exact Fin.ext (by show q.val = 64 + q.val - 64; omega)
theorem store2_piece (x0 x1 x2 : Vec Ideal S4000x64 .f32) (x : S4000x64.Idx) :
    k3_pay6 x0 x1 x2 x = hfin (R := 4000) (N := 64) (M := 192) rfl θw x0 x1 x2 (r3_3.emb x) := by
  obtain ⟨p, q, rfl⟩ : ∃ (p : Fin 4000) (q : Fin 64), x = ix2 p q := ⟨x 0, x 1, eq_ix2 x⟩
  have hq : q.val < 64 := q.isLt
  rw [store2_emb, hfin_apply, dif_neg (show ¬ (128 + q.val < 64) by omega), dif_neg (show ¬ (128 + q.val < 64 + 64) by omega), comb2_pay_apply]
  congr 2
  exact Fin.ext (by show q.val = 128 + q.val - (64 + 64); omega)

/-- The buffer the three stores leave is the side-by-side combination of the three blocks. -/
theorem combined_tile (x0 x1 x2 : Vec Ideal S4000x64 .f32) :
    View.canon [(⟨r3_3, k3_pay6 x0 x1 x2⟩ : View.Piece (Elt Ideal) S4000x192 .f32), ⟨r3_2, k3_pay5 x0 x1 x2⟩, ⟨r3_1, k3_pay4 x0 x1 x2⟩]
      = hfin (R := 4000) (N := 64) (M := 192) rfl θw x0 x1 x2 := by
  funext y
  refine View.canon_apply_of_pieces (Val := Elt Ideal) (S := S4000x192) (e := .f32) (hfin (R := 4000) (N := 64) (M := 192) rfl θw x0 x1 x2) _ ?_ y (cover3_3 _ _ _ y)
  intro pc hpc x
  simp only [List.mem_cons, List.not_mem_nil, or_false] at hpc
  rcases hpc with rfl | rfl | rfl
  · exact store2_piece x0 x1 x2 x
  · exact store1_piece x0 x1 x2 x
  · exact store0_piece x0 x1 x2 x

/-! ## Region 3: where each block sits in its array -/

/-- The printed index maps over the 25 points: every window is at block row t, block column 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- A point of region 3 as a block number below 25. -/
def pt3 (t : Fin cfg3.N) : Fin 25 := ⟨t.val, by have h : cfg3.N = 25 := N_3; have := t.isLt; omega⟩

theorem emb3_0 (t : Fin cfg3.N) (p : Fin 4000) (q : Fin 64) :
    ((cfg3.win 0).blk t).view.emb (ix2 p q) = ix2 (rowOf (pt3 t) p) q := by
  obtain ⟨e00, e01, -⟩ := idx3 t
  funext a; apply Fin.ext
  match a with
  | ⟨0, _⟩ => show win3_0.index t (0 : Fin 2) * 4000 + 1 * p.val = t.val * 4000 + p.val; omega
  | ⟨1, _⟩ => show win3_0.index t (1 : Fin 2) * 64 + 1 * q.val = q.val; omega
theorem emb3_1 (t : Fin cfg3.N) (p : Fin 4000) (q : Fin 64) :
    ((cfg3.win 1).blk t).view.emb (ix2 p q) = ix2 (rowOf (pt3 t) p) q := by
  obtain ⟨-, -, e10, e11, -⟩ := idx3 t
  funext a; apply Fin.ext
  match a with
  | ⟨0, _⟩ => show win3_1.index t (0 : Fin 2) * 4000 + 1 * p.val = t.val * 4000 + p.val; omega
  | ⟨1, _⟩ => show win3_1.index t (1 : Fin 2) * 64 + 1 * q.val = q.val; omega
theorem emb3_2 (t : Fin cfg3.N) (p : Fin 4000) (q : Fin 64) :
    ((cfg3.win 2).blk t).view.emb (ix2 p q) = ix2 (rowOf (pt3 t) p) q := by
  obtain ⟨-, -, -, -, e20, e21, -⟩ := idx3 t
  funext a; apply Fin.ext
  match a with
  | ⟨0, _⟩ => show win3_2.index t (0 : Fin 2) * 4000 + 1 * p.val = t.val * 4000 + p.val; omega
  | ⟨1, _⟩ => show win3_2.index t (1 : Fin 2) * 64 + 1 * q.val = q.val; omega
/-- Entry (p, k) of block t of the 192-column output is entry (4000 t + p, k) of its array. -/
theorem emb3_3 (t : Fin cfg3.N) (p : Fin 4000) (k : Fin 192) :
    ((cfg3.win 3).blk t).view.emb (ix2 p k) = ix2 (rowOf (pt3 t) p) k := by
  obtain ⟨-, -, -, -, -, -, e30, e31⟩ := idx3 t
  funext a; apply Fin.ext
  match a with
  | ⟨0, _⟩ => show win3_3.index t (0 : Fin 2) * 4000 + 1 * p.val = t.val * 4000 + p.val; omega
  | ⟨1, _⟩ => show win3_3.index t (1 : Fin 2) * 192 + 1 * k.val = k.val; omega

/-- The three input blocks at a point, entry by entry, as entries of the arrays the region is entered with. -/
theorem iblk3_0_apply (c : Dev nD) (t : Fin cfg3.N) (p : Fin 4000) (q : Fin 64) :
    (iblk3 (F := Ideal) V c 0 t : Vec Ideal S4000x64 .f32) (ix2 p q) = (V c main_v12_0 : S100000x64.Idx → EReal) (ix2 (rowOf (pt3 t) p) q) := by
  unfold iblk3
  rw [View.read_apply]
  show V c main_v12_0 (((cfg3.win 0).blk t).view.emb (ix2 p q)) = _
  rw [emb3_0]
theorem iblk3_1_apply (c : Dev nD) (t : Fin cfg3.N) (p : Fin 4000) (q : Fin 64) :
    (iblk3 (F := Ideal) V c 1 t : Vec Ideal S4000x64 .f32) (ix2 p q) = (V c main_v23_0 : S100000x64.Idx → EReal) (ix2 (rowOf (pt3 t) p) q) := by
  unfold iblk3
  rw [View.read_apply]
  show V c main_v23_0 (((cfg3.win 1).blk t).view.emb (ix2 p q)) = _
  rw [emb3_1]
theorem iblk3_2_apply (c : Dev nD) (t : Fin cfg3.N) (p : Fin 4000) (q : Fin 64) :
    (iblk3 (F := Ideal) V c 2 t : Vec Ideal S4000x64 .f32) (ix2 p q) = (V c main_v34_0 : S100000x64.Idx → EReal) (ix2 (rowOf (pt3 t) p) q) := by
  unfold iblk3
  rw [View.read_apply]
  show V c main_v34_0 (((cfg3.win 2).blk t).view.emb (ix2 p q)) = _
  rw [emb3_2]

/-! ## Region 3: what each point writes back, and the array after the region -/

/-- Point t writes block t of the side-by-side combination of the three snapshots. -/
theorem flushed3_3_eq (c : Dev nD) (t : Fin cfg3.N) :
    (dat3 (F := Ideal) V c).flushed 3 t
      = ((cfg3.win 3).blk t).view.read (Elt Ideal)
          (hfin (R := 100000) (N := 64) (M := 192) rfl θw (V c main_v12_0) (V c main_v23_0) (V c main_v34_0)) := by
  show (cfg3.win 3).cut (grid3.coords t) ((dat3 (F := Ideal) V c).after 3 t) = _
  rw [after3_3]
  unfold out3_3
  simp only [View.ld_unit_zero (S := S4000x64) zeroOff]
  rw [combined_tile]
  funext j
  obtain ⟨p, k, rfl⟩ : ∃ (p : Fin 4000) (k : Fin 192), j = ix2 p k := ⟨j 0, j 1, eq_ix2 j⟩
  rw [View.read_apply]
  show hfin (R := 4000) (N := 64) (M := 192) rfl θw (iblk3 V c 0 t) (iblk3 V c 1 t) (iblk3 V c 2 t) (ix2 p k)
    = hfin (R := 100000) (N := 64) (M := 192) rfl θw (V c main_v12_0) (V c main_v23_0) (V c main_v34_0) (((cfg3.win 3).blk t).view.emb (ix2 p k))
  rw [emb3_3]
  exact hfin_row_congr rfl θw _ _ _ _ _ _ p (rowOf (pt3 t) p)
    (fun q => iblk3_0_apply V c t p q) (fun q => iblk3_1_apply V c t p q) (fun q => iblk3_2_apply V c t p q) k

/-- An index of the 192-column output is in point t's block iff each coordinate is in the block's range. -/
theorem mem_blk3_3 (t : Fin cfg3.N) (i : S100000x192.Idx) :
    i ∈ ((cfg3.win 3).blk t).view.set ↔ ∀ a : Fin 2, win3_3.index t a * S4000x192.size a ≤ (i a).val ∧ (i a).val < win3_3.index t a * S4000x192.size a + S4000x192.size a := by
  show i ∈ ((View.whole main_v35).slice (win3_3.rect t)).set ↔ _
  rw [View.set_slice_whole, Rect.mem_set_unit]
  exact Iff.rfl

/-- Row r of the array lies in the block of point r / 4000. -/
theorem cover3_3_rows (i : S100000x192.Idx) : ∃ t : Fin cfg3.N, (cfg3.win 3).flush t = true ∧ i ∈ ((cfg3.win 3).blk t).view.set := by
  have hN : cfg3.N = 25 := N_3
  have hi0 : (i 0).val < 100000 := (i 0).isLt
  have hi1 : (i 1).val < 192 := (i 1).isLt
  refine ⟨⟨(i 0).val / 4000, by omega⟩, flush3_3 _, ?_⟩
  rw [mem_blk3_3]
  obtain ⟨-, -, -, -, -, -, e30, e31⟩ := idx3 ⟨(i 0).val / 4000, by omega⟩
  intro a
  match a with
  | ⟨0, _⟩ => show win3_3.index _ (0 : Fin 2) * 4000 ≤ (i 0).val ∧ (i 0).val < win3_3.index _ (0 : Fin 2) * 4000 + 4000; rw [e30]; show (i 0).val / 4000 * 4000 ≤ (i 0).val ∧ (i 0).val < (i 0).val / 4000 * 4000 + 4000; omega
  | ⟨1, _⟩ => show win3_3.index _ (1 : Fin 2) * 192 ≤ (i 1).val ∧ (i 1).val < win3_3.index _ (1 : Fin 2) * 192 + 192; rw [e31]; omega

/-- After region 3 its output holds the three combinations of the three snapshots side by side. -/
theorem final3_3 (c : Dev nD) :
    (dat3 (F := Ideal) V c).arrAt 3 cfg3.N
      = hfin (R := 100000) (N := 64) (M := 192) rfl θw (V c main_v12_0) (V c main_v23_0) (V c main_v34_0) :=
  (dat3 (F := Ideal) V c).arrAt_eq_of_cover 3 _ (fun t _ => flushed3_3_eq V c t) cover3_3_rows

end Cert.KernelIdeal.Hand

end
-- ==== Proof.LibDenseStep.lean ====
/-
  DENSE LAYERS STEP BY STEP, at the ideal values: from what the operand's row is to what the result's row is.

  Stated over LibDenseRow's row functions `layer` and `act`.  Each lemma takes as a hypothesis what row `p` of the operand is
  (`ha`) and what the weight's entries are (`hw`), and returns row `p` of the result, so that a chain of layers is read by
  nesting them.  Two spellings: on the vector unit (a matrix product into the zero accumulator; a one-row bias `[1, N]` cast
  to itself and broadcast over the rows; the rectifier against the zero word splat) and on the host (`dot_general`; the bias
  `[N]` broadcast to `[1, N]` and then over the rows; the rectifier against the zero constant broadcast from a scalar).
  Also: the host's broadcasts of a constant, of a column across columns, and the other keep-dimension broadcasts of a
  batch of tables, read at an index; and two tactics that decide, for a printed contraction record that contracts the
  operand's columns with the weight's rows, which operand entries an output entry reads.
  No algebra of the extended reals is used.
-/
import proofs.«137019_j87943750353376_1_alg».proof.Proof.LibRowBias

noncomputable section

open scoped BigOperators

namespace Cert.DenseStep

open Idealize.ShloMosaic Idealize.ShloMosaic.ValueIdx Cert.DenseRow Cert.RowBias

/-! ## The contraction records: operand indices at an output index -/

/-- For a record contracting the operand's columns with the weight's rows: the operand index at output `(p, c)` and
    contraction coordinate `k` is `(p, k)`. -/
macro "plain_lhs " d:ident K:num : tactic => `(tactic| (
  intro p c k
  funext a
  apply Fin.ext
  match a with
  | ⟨0, _⟩ =>
    show (DotDims.lhsIdx $d (ix2 p c) ((contrEquiv1 $d $K rfl rfl).symm k) 0).val = p.val
    unfold DotDims.lhsIdx
    rw [dif_neg (by decide), dif_pos (by decide)]
    rfl
  | ⟨1, _⟩ => exact (DotDims.lhsIdx_val_of_single $d rfl _ _).trans (contrEquiv1_symm_val $d $K rfl rfl k)))

/-- … and the weight index is `(k, c)`. -/
macro "plain_rhs " d:ident K:num : tactic => `(tactic| (
  intro p c k
  funext a
  apply Fin.ext
  match a with
  | ⟨0, _⟩ => exact (DotDims.rhsIdx_val_of_single $d rfl _ _).trans (contrEquiv1_symm_val $d $K rfl rfl k)
  | ⟨1, _⟩ =>
    show (DotDims.rhsIdx $d (ix2 p c) ((contrEquiv1 $d $K rfl rfl).symm k) 1).val = c.val
    unfold DotDims.rhsIdx
    rw [dif_neg (by decide), dif_pos (by decide)]
    rfl))

/-! ## Step lemmas: from the operand's row to the result's row -/

/-- A matrix product into the zero accumulator, at `(p, c)`, given the operand's row `p` and the weight's entries. -/
theorem kmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (c : Fin N) :
    matmul d none a w (constant ⟨2, ![R, N]⟩ .f32 0x00000000#32) (ix2 p c) = ∑ k : Fin K, xr k * wm k c := by
  show FloatOps.matmul d none a w (constant ⟨2, ![R, N]⟩ .f32 0x00000000#32) (ix2 p c) = _
  rw [Ideal.matmul_constant_zero_apply, contr_sum d hr hs hl hrr]
  exact Finset.sum_congr rfl fun k _ => by rw [ha k, hw k c]

/-- A one-row bias `[1, N]` cast to itself and broadcast over the rows, at `(p, c)`. -/
theorem kbias_row {R N : ℕ} (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (p : Fin R) (c : Fin N) :
    broadcastTo ⟨2, ![R, N]⟩ (shapeCast ⟨2, ![1, N]⟩ v hc) hb (ix2 p c) = v (ix2 (0 : Fin 1) c) := by
  rw [shapeCast_self, broadcastTo_1b_ab_apply]

/-- A dense layer (product into the zero accumulator plus the one-row bias), at `(p, c)`. -/
theorem klayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    addf (matmul d none a w (constant ⟨2, ![R, N]⟩ .f32 0x00000000#32))
        (broadcastTo ⟨2, ![R, N]⟩ (shapeCast ⟨2, ![1, N]⟩ v hc) hb) (ix2 p c)
      = layer xr wm (fun j => v (ix2 (0 : Fin 1) j)) c := by
  show matmul d none a w (constant ⟨2, ![R, N]⟩ .f32 0x00000000#32) (ix2 p c)
      + broadcastTo ⟨2, ![R, N]⟩ (shapeCast ⟨2, ![1, N]⟩ v hc) hb (ix2 p c) = _
  rw [kmm_row d hr hs hl hrr a w p xr ha wm hw c, kbias_row v hc hb p c]
  rfl

/-- The same followed by the rectifier. -/
theorem klayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    maximumf (addf (matmul d none a w (constant ⟨2, ![R, N]⟩ .f32 0x00000000#32))
        (broadcastTo ⟨2, ![R, N]⟩ (shapeCast ⟨2, ![1, N]⟩ v hc) hb))
        (broadcast ⟨2, ![R, N]⟩ (Scalar.ofBits (F := Ideal) .f32 0x00000000#32)) (ix2 p c)
      = act zf (layer xr wm (fun j => v (ix2 (0 : Fin 1) j))) c :=
  congrArg (fun y => max y zf) (klayer_row d hr hs hl hrr a w p xr ha wm hw v hc hb c)

/-- A weight behind a cast to its own shape reads as itself. -/
theorem self_cast {K N : ℕ} {φ : FTy} (w : FVec Ideal ⟨2, ![K, N]⟩ φ) (h : (⟨2, ![K, N]⟩ : Shape).ShapeCasts ⟨2, ![K, N]⟩)
    (k : Fin K) (j : Fin N) : shapeCast ⟨2, ![K, N]⟩ w h (ix2 k j) = w (ix2 k j) :=
  congrFun (shapeCast_self w h) _

/-! ## The host's spellings -/

/-- A `dot_general`, at `(p, c)`, given the operand's row `p` and the weight's entries. -/
theorem hmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (c : Fin N) :
    Host.dotGeneral d none a w (ix2 p c) = ∑ k : Fin K, xr k * w (ix2 k c) := by
  simp only [Host.dotGeneral]
  rw [Ideal.dotGeneral_apply, contr_sum d hr hs hl hrr]
  exact Finset.sum_congr rfl fun k _ => by rw [ha k]

/-- The host's dense layer, at `(p, c)`. -/
theorem hlayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (c : Fin N) :
    addf (Host.dotGeneral d none a w)
        (broadcastInDim ⟨2, ![R, N]⟩ ![0, 1] h2 (broadcastInDim ⟨2, ![1, N]⟩ ![1] h1 b)) (ix2 p c)
      = layer xr (fun k j => w (ix2 k j)) (fun j => b (ix1 j)) c := by
  rw [hlayer_apply d hr hs hl hrr none a w b h1 h2 p c, show (fun k => a (ix2 p k)) = xr from funext ha]

/-- A constant broadcast from a scalar reads the constant's value everywhere. -/
theorem hconst {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's rectifier at an index. -/
theorem hrelu {s : Shape} (y : FVec Ideal s .f32) (h : (⟨0, ![]⟩ : Shape).BroadcastsInDim s ![]) (i : s.Idx) :
    maximumf y (broadcastInDim s ![] h (constant (F := Ideal) ⟨0, ![]⟩ .f32 0x00000000#32)) i = max (y i) zf :=
  congrFun (hact y h) i

/-- The host's dense layer followed by its rectifier. -/
theorem hlayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) (c : Fin N) :
    maximumf (addf (Host.dotGeneral d none a w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 p c)
      = act zf (layer xr (fun k j => w (ix2 k j)) (fun j => b (ix1 j))) c :=
  (hrelu _ h0 (ix2 p c)).trans (congrArg (fun y => max y zf) (hlayer_row d hr hs hl hrr a w p xr ha b h1 h2 c))

variable {α : Type}

/-- A column `[R, 1]` broadcast across `N` columns. -/
theorem hbcast_col {R N : ℕ} (v : (⟨2, ![R, 1]⟩ : Shape).Idx → α) (h : (⟨2, ![R, 1]⟩ : Shape).BroadcastsInDim ⟨2, ![R, N]⟩ ![0, 1])
    (r : Fin R) (k : Fin N) : broadcastInDim ⟨2, ![R, N]⟩ ![0, 1] h v (ix2 r k) = v (ix2 r (0 : Fin 1)) :=
  broadcastInDim_apply _ h v (ix2 r k) (ix2 r (0 : Fin 1)) fun ax => by
    match ax with
    | ⟨0, _⟩ =>
      show r.val = if R = 1 then 0 else r.val
      split
      · have := r.isLt; omega
      · rfl
    | ⟨1, _⟩ => rfl

/-- A vector `[A]` as a column `[A, 1]`. -/
theorem hbcast_vec_col {A : ℕ} (v : (⟨1, ![A]⟩ : Shape).Idx → α) (h : (⟨1, ![A]⟩ : Shape).BroadcastsInDim ⟨2, ![A, 1]⟩ ![0])
    (b : Fin A) (u : Fin 1) : broadcastInDim ⟨2, ![A, 1]⟩ ![0] h v (ix2 b u) = v (ix1 b) :=
  broadcastInDim_apply _ h v (ix2 b u) (ix1 b) fun ax => by
    match ax with
    | ⟨0, _⟩ =>
      show b.val = if A = 1 then 0 else b.val
      split
      · have := b.isLt; omega
      · rfl

/-- A per-table row `[A, C]` with a unit row axis inserted, `[A, 1, C]`. -/
theorem hbcast_ac_a1c {A C : ℕ} (v : (⟨2, ![A, C]⟩ : Shape).Idx → α)
    (h : (⟨2, ![A, C]⟩ : Shape).BroadcastsInDim ⟨3, ![A, 1, C]⟩ ![0, 2]) (b : Fin A) (u : Fin 1) (k : Fin C) :
    broadcastInDim ⟨3, ![A, 1, C]⟩ ![0, 2] h v (ix3 b u k) = v (ix2 b k) :=
  broadcastInDim_apply _ h v (ix3 b u k) (ix2 b k) fun ax => by
    match ax with
    | ⟨0, _⟩ =>
      show b.val = if A = 1 then 0 else b.val
      split
      · have := b.isLt; omega
      · rfl
    | ⟨1, _⟩ =>
      show k.val = if C = 1 then 0 else k.val
      split
      · have := k.isLt; omega
      · rfl

/-- `[A, 1, C]` repeated over a table's `B` rows. -/
theorem hbcast_a1c_abc {A B C : ℕ} (v : (⟨3, ![A, 1, C]⟩ : Shape).Idx → α)
    (h : (⟨3, ![A, 1, C]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b (0 : Fin 1) k) :=
  broadcastInDim_apply _ h v (ix3 b n k) (ix3 b (0 : Fin 1) k) fun ax => by
    match ax with
    | ⟨0, _⟩ =>
      show b.val = if A = 1 then 0 else b.val
      split
      · have := b.isLt; omega
      · rfl
    | ⟨1, _⟩ => rfl
    | ⟨2, _⟩ =>
      show k.val = if C = 1 then 0 else k.val
      split
      · have := k.isLt; omega
      · rfl

/-- A per-row number `[A, B]` with a unit column axis appended, `[A, B, 1]`. -/
theorem hbcast_ab_ab1 {A B : ℕ} (v : (⟨2, ![A, B]⟩ : Shape).Idx → α)
    (h : (⟨2, ![A, B]⟩ : Shape).BroadcastsInDim ⟨3, ![A, B, 1]⟩ ![0, 1]) (b : Fin A) (n : Fin B) (u : Fin 1) :
    broadcastInDim ⟨3, ![A, B, 1]⟩ ![0, 1] h v (ix3 b n u) = v (ix2 b n) :=
  broadcastInDim_apply _ h v (ix3 b n u) (ix2 b n) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl

/-- `[A, B, 1]` repeated across `C` columns. -/
theorem hbcast_ab1_abc {A B C : ℕ} (v : (⟨3, ![A, B, 1]⟩ : Shape).Idx → α)
    (h : (⟨3, ![A, B, 1]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b n (0 : Fin 1)) :=
  broadcastInDim_apply _ h v (ix3 b n k) (ix3 b n (0 : Fin 1)) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl
    | ⟨2, _⟩ => rfl

end Cert.DenseStep

end
-- ==== Proof.RegionDense.lean ====
/-
  THE TWO DENSE REGIONS, blocks to the array.

  The encoder and the decoder each run over the 100000 node rows in 25 blocks of 4000 rows.  On a block the body is
  the specification's own function at 4000 rows (two dense layers with rectifiers; a dense layer, a rectifier, a
  dense layer), the weights and biases being whole arrays at every point; row `p` of a result depends only on row `p`
  of the operand, and row `p` of block `t` is row `4000 t + p` of the array.  So what point `t` writes back is block
  `t` of the specification's function of the whole arrays, and the 25 blocks cover the array.
-/
import proofs.«137019_j87943750353376_1_alg».proof.Proof.Gen.KernelIdeal.Frame
import proofs.«137019_j87943750353376_1_alg».proof.Proof.Spec
import proofs.«137019_j87943750353376_1_alg».proof.Proof.LibDenseStep
import proofs.«137019_j87943750353376_1_alg».proof.Proof.LibColumn

set_option maxRecDepth 16384

noncomputable section

open scoped BigOperators

namespace Cert.KernelIdeal.Hand

open Cert.KernelIdeal Cert.KernelIdeal.Gen Cert.PolyFilter Idealize.ShloMosaic Idealize.ShloMosaic.TcCoe
  Idealize.ShloMosaic.ValueIdx Idealize.SL.Sem
open Idealize.ShloMosaic.Pipeline (Dat)
open Cert.DenseRow Cert.RowBias Cert.DenseStep

/-! ## Rows of the specification's functions -/

/-- Row `p` of the decoder of `y` is row `p'` of the decoder of `Y` when row `p` of `y` is row `p'` of `Y`. -/
theorem dec_rows {R R' K H C : ℕ} (y : (⟨2, ![R, K]⟩ : Shape).Idx → EReal) (Y : (⟨2, ![R', K]⟩ : Shape).Idx → EReal)
    (w1 : (⟨2, ![K, H]⟩ : Shape).Idx → EReal) (b1 : (⟨1, ![H]⟩ : Shape).Idx → EReal)
    (w2 : (⟨2, ![H, C]⟩ : Shape).Idx → EReal) (b2 : (⟨1, ![C]⟩ : Shape).Idx → EReal) (p : Fin R) (p' : Fin R')
    (h : ∀ k : Fin K, y (ix2 p k) = Y (ix2 p' k)) (c : Fin C) :
    dec y w1 b1 w2 b2 (ix2 p c) = dec Y w1 b1 w2 b2 (ix2 p' c) :=
  layerArr_rows _ _ w2 b2 p p'
    (fun k => actArr_rows zf _ _ p p' (fun k' => layerArr_rows y Y w1 b1 p p' h k') k) c

/-- The same for the encoder. -/
theorem enc_rows {R R' K H : ℕ} (x : (⟨2, ![R, K]⟩ : Shape).Idx → EReal) (X : (⟨2, ![R', K]⟩ : Shape).Idx → EReal)
    (w1 : (⟨2, ![K, H]⟩ : Shape).Idx → EReal) (b1 : (⟨1, ![H]⟩ : Shape).Idx → EReal)
    (w2 : (⟨2, ![H, H]⟩ : Shape).Idx → EReal) (b2 : (⟨1, ![H]⟩ : Shape).Idx → EReal) (p : Fin R) (p' : Fin R')
    (h : ∀ k : Fin K, x (ix2 p k) = X (ix2 p' k)) (c : Fin H) :
    enc x w1 b1 w2 b2 (ix2 p c) = enc X w1 b1 w2 b2 (ix2 p' c) :=
  actArr_rows zf _ _ p p'
    (fun k => layerArr_rows _ _ w2 b2 p p'
      (fun k' => actArr_rows zf _ _ p p' (fun k'' => layerArr_rows x X w1 b1 p p' h k'') k') k) c

/-! ## The body's layer on a block -/

/-- Rounding to the narrower format is the identity at the ideal values. -/
theorem truncf_id {s : Shape} {φ ψ : FTy} (x : FVec Ideal s φ) (h : ψ.bits < φ.bits) : truncf ψ x h = x := rfl

/-- A matrix product into the zero accumulator plus the bias `[N]` cast to `[1, N]` and broadcast over the rows
    is the dense layer of every row. -/
theorem klayer0 {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d none a w (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  show FloatOps.matmul d none a w (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, broadcastTo_1b_ab_apply, shapeCast_a_1a_apply]
  rfl

theorem hz2 : (![0, 0] : Fin 2 → Nat) = fun _ => 0 := funext fun a => by fin_cases a <;> rfl
theorem hz1 : (![0] : Fin 1 → Nat) = fun _ => 0 := funext fun a => by fin_cases a <;> rfl

/-! ## The encoder region -/

/-- On a block the encoder's body is the encoder at 4000 rows. -/
theorem pay0_1_eq (x0 : Vec Ideal S4000x128 .f32) (w1 : Vec Ideal S128x64 .f32) (b1 : Vec Ideal S64 .f32)
    (w2 : Vec Ideal S64x64 .f32) (b2 : Vec Ideal S64 .f32) :
    k0_pay1 (F := Ideal) x0 w1 b1 w2 b2 = enc (R := 4000) (K := 128) (H := 64) x0 w1 b1 w2 b2 := by
  unfold k0_pay1 enc
  simp only [truncf_id]
  rw [klayer0 dot_S4000x128_S128x64_S4000x64_1_0_0_1_n_n rfl rfl
      (by plain_lhs dot_S4000x128_S128x64_S4000x64_1_0_0_1_n_n 128)
      (by plain_rhs dot_S4000x128_S128x64_S4000x64_1_0_0_1_n_n 128),
    kact,
    klayer0 dot_S4000x64_S64x64_S4000x64_1_0_0_1_n_n rfl rfl
      (by plain_lhs dot_S4000x64_S64x64_S4000x64_1_0_0_1_n_n 64)
      (by plain_rhs dot_S4000x64_S64x64_S4000x64_1_0_0_1_n_n 64),
    kact]

/-- Row `p` of a scaled array is row `p'` of another when the rows and the column's entries agree. -/
theorem scaleCol_rows {R R' N : ℕ} (y : (⟨2, ![R, N]⟩ : Shape).Idx → EReal) (Y : (⟨2, ![R', N]⟩ : Shape).Idx → EReal)
    (d : (⟨2, ![R, 1]⟩ : Shape).Idx → EReal) (D : (⟨2, ![R', 1]⟩ : Shape).Idx → EReal) (p : Fin R) (p' : Fin R') (c : Fin N)
    (hy : y (ix2 p c) = Y (ix2 p' c)) (hd : d (ix2 p (0 : Fin 1)) = D (ix2 p' (0 : Fin 1))) :
    scaleCol y d (ix2 p c) = scaleCol Y D (ix2 p' c) := by
  show y (ix2 p c) * d (ix2 p (0 : Fin 1)) = Y (ix2 p' c) * D (ix2 p' (0 : Fin 1))
  rw [hy, hd]

/-- The second output's body: the encoder's block times the column's entry of each row. -/
theorem pay0_2_eq (x0 : Vec Ideal S4000x128 .f32) (w1 : Vec Ideal S128x64 .f32) (b1 : Vec Ideal S64 .f32)
    (w2 : Vec Ideal S64x64 .f32) (b2 : Vec Ideal S64 .f32) (d : Vec Ideal S4000x1 .f32) :
    k0_pay2 (F := Ideal) x0 w1 b1 w2 b2 d
      = scaleCol (R := 4000) (N := 64) (enc (R := 4000) (K := 128) (H := 64) x0 w1 b1 w2 b2) d := by
  unfold k0_pay2
  rw [pay0_1_eq, shapeCast_self]
  funext i
  obtain ⟨p, q, rfl⟩ : ∃ (p : Fin 4000) (q : Fin 64), i = ix2 p q := ⟨i 0, i 1, eq_ix2 i⟩
  rw [mulf_apply, ColumnLayout.broadcastTo_a1_ab_apply]
  rfl

/-- The printed index maps over the grid: the row-blocked windows move with the point, the weights and biases stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

section Encoder

variable (V : (c : Dev nD) → (b : Ref sig .tc) → Buf (Elt Ideal) ((c : Thread nD τ).loc b))

/-- The operand's block at point `t`: row `p` of the block is row `4000 t + p` of the array. -/
theorem iblk0_0_apply (c : Dev nD) (t : Fin cfg0.N) (p : Fin 4000) (k : Fin 128) (p' : Fin 100000)
    (hp : p'.val = 4000 * t.val + p.val) :
    (iblk0 (F := Ideal) V c 0 t : Vec Ideal S4000x128 .f32) (ix2 p k)
      = (V c main_arg0 : S100000x128.Idx → EReal) (ix2 p' k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 4000 + 1 * p.val = p'.val; rw [e0, hp]; omega
  | ⟨1, _⟩ => show win0_0.index t 1 * 128 + 1 * k.val = k.val; rw [e1]; omega

/-- The column's block at point `t`: its entry of row `p` is the column's entry of row `4000 t + p`. -/
theorem iblk0_1_apply (c : Dev nD) (t : Fin cfg0.N) (p : Fin 4000) (u : Fin 1) (p' : Fin 100000)
    (hp : p'.val = 4000 * t.val + p.val) :
    (iblk0 (F := Ideal) V c 1 t : Vec Ideal S4000x1 .f32) (ix2 p u)
      = (V c main_v11 : S100000x1.Idx → EReal) (ix2 p' u) := by
  obtain ⟨-, -, e0, e1, -⟩ := idx0 t
  unfold iblk0
  rw [View.read_apply]
  show V c main_v11 _ = V c main_v11 _
  congr 1
  funext a
  apply Fin.ext
  match a with
  | ⟨0, _⟩ => show win0_1.index t 0 * 4000 + 1 * p.val = p'.val; rw [e0, hp]; omega
  | ⟨1, _⟩ => show win0_1.index t 1 * 1 + 1 * u.val = u.val; rw [e1]; omega

/-- The weights and biases are whole arrays at every point. -/
theorem iblk0_2_eq (c : Dev nD) (t : Fin cfg0.N) :
    (iblk0 (F := Ideal) V c 2 t : Vec Ideal S128x64 .f32) = V c main_arg2 := by
  obtain ⟨-, -, -, -, e0, e1, -⟩ := idx0 t
  funext x
  unfold iblk0
  rw [View.read_apply]
  show V c main_arg2 _ = V c main_arg2 x
  congr 1
  funext a
  apply Fin.ext
  match a with
  | ⟨0, _⟩ => show win0_2.index t 0 * 128 + 1 * (x 0).val = (x 0).val; rw [e0]; omega
  | ⟨1, _⟩ => show win0_2.index t 1 * 64 + 1 * (x 1).val = (x 1).val; rw [e1]; omega

theorem iblk0_3_eq (c : Dev nD) (t : Fin cfg0.N) :
    (iblk0 (F := Ideal) V c 3 t : Vec Ideal S64 .f32) = V c main_arg3 := by
  obtain ⟨-, -, -, -, -, -, e0, -⟩ := idx0 t
  funext x
  unfold iblk0
  rw [View.read_apply]
  show V c main_arg3 _ = V c main_arg3 x
  congr 1
  funext a
  apply Fin.ext
  match a with
  | ⟨0, _⟩ => show win0_3.index t 0 * 64 + 1 * (x 0).val = (x 0).val; rw [e0]; omega

theorem iblk0_4_eq (c : Dev nD) (t : Fin cfg0.N) :
    (iblk0 (F := Ideal) V c 4 t : Vec Ideal S64x64 .f32) = V c main_arg4 := by
  obtain ⟨-, -, -, -, -, -, -, e0, e1, -⟩ := idx0 t
  funext x
  unfold iblk0
  rw [View.read_apply]
  show V c main_arg4 _ = V c main_arg4 x
  congr 1
  funext a
  apply Fin.ext
  match a with
  | ⟨0, _⟩ => show win0_4.index t 0 * 64 + 1 * (x 0).val = (x 0).val; rw [e0]; omega
  | ⟨1, _⟩ => show win0_4.index t 1 * 64 + 1 * (x 1).val = (x 1).val; rw [e1]; omega

theorem iblk0_5_eq (c : Dev nD) (t : Fin cfg0.N) :
    (iblk0 (F := Ideal) V c 5 t : Vec Ideal S64 .f32) = V c main_arg5 := by
  obtain ⟨-, -, -, -, -, -, -, -, -, e0, -⟩ := idx0 t
  funext x
  unfold iblk0
  rw [View.read_apply]
  show V c main_arg5 _ = V c main_arg5 x
  congr 1
  funext a
  apply Fin.ext
  match a with
  | ⟨0, _⟩ => show win0_5.index t 0 * 64 + 1 * (x 0).val = (x 0).val; rw [e0]; omega

/-- What point `t` writes back to the first output is block `t` of the encoder of the whole arrays. -/
theorem flushed0_6_eq (c : Dev nD) (t : Fin cfg0.N) :
    (dat0 (F := Ideal) V c).flushed 6 t = ((cfg0.win 6).blk t).view.read (Elt Ideal)
      (enc (R := 100000) (K := 128) (H := 64) (V c main_arg0) (V c main_arg2) (V c main_arg3) (V c main_arg4)
        (V c main_arg5)) := by
  show (cfg0.win 6).cut (grid0.coords t) ((dat0 (F := Ideal) V c).after 6 t) = _
  rw [after0_6]
  unfold out0_6
  rw [View.canon_unit_zero hz2]
  simp only [View.ld_unit_zero (S := S4000x128) hz2, View.ld_unit_zero (S := S128x64) hz2,
    View.ld_unit_zero (S := S64) hz1, View.ld_unit_zero (S := S64x64) hz2]
  rw [pay0_1_eq (iblk0 V c 0 t) (iblk0 V c 2 t) (iblk0 V c 3 t) (iblk0 V c 4 t) (iblk0 V c 5 t),
    iblk0_2_eq V c t, iblk0_3_eq V c t, iblk0_4_eq V c t, iblk0_5_eq V c t]
  obtain ⟨-, -, -, -, -, -, -, -, -, -, e0, e1, -⟩ := idx0 t
  have hN : cfg0.N = 25 := N_0
  have ht := t.isLt
  funext j
  obtain ⟨p, q, rfl⟩ : ∃ (p : Fin 4000) (q : Fin 64), j = ix2 p q := ⟨j 0, j 1, eq_ix2 j⟩
  have hemb : ((cfg0.win 6).blk t).view.emb (ix2 p q)
      = ix2 (⟨4000 * t.val + p.val, by have := p.isLt; omega⟩ : Fin 100000) q := by
    funext a
    apply Fin.ext
    match a with
    | ⟨0, _⟩ => show win0_6.index t 0 * 4000 + 1 * p.val = 4000 * t.val + p.val; rw [e0]; omega
    | ⟨1, _⟩ => show win0_6.index t 1 * 64 + 1 * q.val = q.val; rw [e1]; omega
  rw [View.read_apply, hemb]
  exact enc_rows _ _ _ _ _ _ p _ (fun k => iblk0_0_apply V c t p k _ rfl) q

/-- What point `t` writes back to the second output is block `t` of the encoder's result scaled by the column. -/
theorem flushed0_7_eq (c : Dev nD) (t : Fin cfg0.N) :
    (dat0 (F := Ideal) V c).flushed 7 t = ((cfg0.win 7).blk t).view.read (Elt Ideal)
      (scaleCol (R := 100000) (N := 64)
        (enc (R := 100000) (K := 128) (H := 64) (V c main_arg0) (V c main_arg2) (V c main_arg3) (V c main_arg4)
          (V c main_arg5)) (V c main_v11)) := by
  show (cfg0.win 7).cut (grid0.coords t) ((dat0 (F := Ideal) V c).after 7 t) = _
  rw [after0_7]
  unfold out0_7
  rw [View.canon_unit_zero hz2]
  simp only [View.ld_unit_zero (S := S4000x128) hz2, View.ld_unit_zero (S := S128x64) hz2,
    View.ld_unit_zero (S := S64) hz1, View.ld_unit_zero (S := S64x64) hz2, View.ld_unit_zero (S := S4000x1) hz2]
  rw [pay0_2_eq (iblk0 V c 0 t) (iblk0 V c 2 t) (iblk0 V c 3 t) (iblk0 V c 4 t) (iblk0 V c 5 t) (iblk0 V c 1 t),
    iblk0_2_eq V c t, iblk0_3_eq V c t, iblk0_4_eq V c t, iblk0_5_eq V c t]
  obtain ⟨-, -, -, -, -, -, -, -, -, -, -, -, e0, e1⟩ := idx0 t
  have hN : cfg0.N = 25 := N_0
  have ht := t.isLt
  funext j
  obtain ⟨p, q, rfl⟩ : ∃ (p : Fin 4000) (q : Fin 64), j = ix2 p q := ⟨j 0, j 1, eq_ix2 j⟩
  have hemb : ((cfg0.win 7).blk t).view.emb (ix2 p q)
      = ix2 (⟨4000 * t.val + p.val, by have := p.isLt; omega⟩ : Fin 100000) q := by
    funext a
    apply Fin.ext
    match a with
    | ⟨0, _⟩ => show win0_7.index t 0 * 4000 + 1 * p.val = 4000 * t.val + p.val; rw [e0]; omega
    | ⟨1, _⟩ => show win0_7.index t 1 * 64 + 1 * q.val = q.val; rw [e1]; omega
  rw [View.read_apply, hemb]
  exact scaleCol_rows _ _ _ _ p _ q (enc_rows _ _ _ _ _ _ p _ (fun k => iblk0_0_apply V c t p k _ rfl) q)
    (iblk0_1_apply V c t p 0 _ rfl)

/-- Every row lies in the block of the point `row / 4000`, for either output. -/
theorem cover0_6 (i : S100000x64.Idx) :
    ∃ t : Fin cfg0.N, (cfg0.win 6).flush t = true ∧ i ∈ ((cfg0.win 6).blk t).view.set := by
  have hN : cfg0.N = 25 := N_0
  have hi0 : (i 0).val < 100000 := (i 0).isLt
  have hi1 : (i 1).val < 64 := (i 1).isLt
  obtain ⟨t, htv⟩ : ∃ t : Fin cfg0.N, t.val = (i 0).val / 4000 := ⟨⟨(i 0).val / 4000, by omega⟩, rfl⟩
  obtain ⟨-, -, -, -, -, -, -, -, -, -, e0, e1, -⟩ := idx0 t
  refine ⟨t, flush0_6 t, ?_⟩
  show i ∈ ((View.whole main_v12_0).slice (win0_6.rect t)).set
  rw [View.set_slice_whole, Rect.mem_set_unit]
  intro a
  match a with
  | ⟨0, _⟩ =>
    show win0_6.index t 0 * 4000 ≤ (i 0).val ∧ (i 0).val < win0_6.index t 0 * 4000 + 4000
    rw [e0, htv]; omega
  | ⟨1, _⟩ =>
    show win0_6.index t 1 * 64 ≤ (i 1).val ∧ (i 1).val < win0_6.index t 1 * 64 + 64
    rw [e1]; omega

theorem cover0_7 (i : S100000x64.Idx) :
    ∃ t : Fin cfg0.N, (cfg0.win 7).flush t = true ∧ i ∈ ((cfg0.win 7).blk t).view.set := by
  have hN : cfg0.N = 25 := N_0
  have hi0 : (i 0).val < 100000 := (i 0).isLt
  have hi1 : (i 1).val < 64 := (i 1).isLt
  obtain ⟨t, htv⟩ : ∃ t : Fin cfg0.N, t.val = (i 0).val / 4000 := ⟨⟨(i 0).val / 4000, by omega⟩, rfl⟩
  obtain ⟨-, -, -, -, -, -, -, -, -, -, -, -, e0, e1⟩ := idx0 t
  refine ⟨t, flush0_7 t, ?_⟩
  show i ∈ ((View.whole main_v12_1).slice (win0_7.rect t)).set
  rw [View.set_slice_whole, Rect.mem_set_unit]
  intro a
  match a with
  | ⟨0, _⟩ =>
    show win0_7.index t 0 * 4000 ≤ (i 0).val ∧ (i 0).val < win0_7.index t 0 * 4000 + 4000
    rw [e0, htv]; omega
  | ⟨1, _⟩ =>
    show win0_7.index t 1 * 64 ≤ (i 1).val ∧ (i 1).val < win0_7.index t 1 * 64 + 64
    rw [e1]; omega

/-- THE ENCODER'S FIRST OUTPUT after the region: the encoder of the whole arrays. -/
theorem final0_6 (c : Dev nD) :
    (dat0 (F := Ideal) V c).arrAt 6 cfg0.N
      = enc (R := 100000) (K := 128) (H := 64) (V c main_arg0) (V c main_arg2) (V c main_arg3) (V c main_arg4)
          (V c main_arg5) :=
  (dat0 (F := Ideal) V c).arrAt_eq_of_cover 6 _ (fun t _ => flushed0_6_eq V c t) cover0_6

/-- THE ENCODER'S SECOND OUTPUT after the region: the first scaled, row by row, by the column. -/
theorem final0_7 (c : Dev nD) :
    (dat0 (F := Ideal) V c).arrAt 7 cfg0.N
      = scaleCol (R := 100000) (N := 64)
          (enc (V c main_arg0) (V c main_arg2) (V c main_arg3) (V c main_arg4) (V c main_arg5)) (V c main_v11) :=
  (dat0 (F := Ideal) V c).arrAt_eq_of_cover 7 _ (fun t _ => flushed0_7_eq V c t) cover0_7

end Encoder

/-! ## The decoder region -/

/-- On a block the decoder's body is the decoder at 4000 rows. -/
theorem pay4_eq (x0 : Vec Ideal S4000x192 .f32) (w1 : Vec Ideal S192x64 .f32) (b1 : Vec Ideal S64 .f32)
    (w2 : Vec Ideal S64x2 .f32) (b2 : Vec Ideal S2 .f32) :
    k4_pay1 (F := Ideal) x0 w1 b1 w2 b2 = dec (R := 4000) (K := 192) (H := 64) (C := 2) x0 w1 b1 w2 b2 := by
  unfold k4_pay1 dec
  simp only [truncf_id]
  rw [shapeCast_self,
    klayer0 dot_S4000x192_S192x64_S4000x64_1_0_0_1_n_n rfl rfl
      (by plain_lhs dot_S4000x192_S192x64_S4000x64_1_0_0_1_n_n 192)
      (by plain_rhs dot_S4000x192_S192x64_S4000x64_1_0_0_1_n_n 192),
    kact,
    klayer0 dot_S4000x64_S64x2_S4000x2_1_0_0_1_n_n rfl rfl
      (by plain_lhs dot_S4000x64_S64x2_S4000x2_1_0_0_1_n_n 64)
      (by plain_rhs dot_S4000x64_S64x2_S4000x2_1_0_0_1_n_n 64)]

/-- The printed index maps over the grid: the row-blocked windows move with the point, the weights and biases stay. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

section Decoder

variable (V : (c : Dev nD) → (b : Ref sig .tc) → Buf (Elt Ideal) ((c : Thread nD τ).loc b))

/-- The operand's block at point `t`: row `p` of the block is row `4000 t + p` of the array. -/
theorem iblk4_0_apply (c : Dev nD) (t : Fin cfg4.N) (p : Fin 4000) (k : Fin 192) (p' : Fin 100000)
    (hp : p'.val = 4000 * t.val + p.val) :
    (iblk4 (F := Ideal) V c 0 t : Vec Ideal S4000x192 .f32) (ix2 p k)
      = (V c main_v35 : S100000x192.Idx → EReal) (ix2 p' k) := by
  obtain ⟨e0, e1, -⟩ := idx4 t
  unfold iblk4
  rw [View.read_apply]
  show V c main_v35 _ = V c main_v35 _
  congr 1
  funext a
  apply Fin.ext
  match a with
  | ⟨0, _⟩ => show win4_0.index t 0 * 4000 + 1 * p.val = p'.val; rw [e0, hp]; omega
  | ⟨1, _⟩ => show win4_0.index t 1 * 192 + 1 * k.val = k.val; rw [e1]; omega

/-- The weights and biases are whole arrays at every point. -/
theorem iblk4_1_eq (c : Dev nD) (t : Fin cfg4.N) :
    (iblk4 (F := Ideal) V c 1 t : Vec Ideal S192x64 .f32) = V c main_arg6 := by
  obtain ⟨-, -, e0, e1, -⟩ := idx4 t
  funext x
  unfold iblk4
  rw [View.read_apply]
  show V c main_arg6 _ = V c main_arg6 x
  congr 1
  funext a
  apply Fin.ext
  match a with
  | ⟨0, _⟩ => show win4_1.index t 0 * 192 + 1 * (x 0).val = (x 0).val; rw [e0]; omega
  | ⟨1, _⟩ => show win4_1.index t 1 * 64 + 1 * (x 1).val = (x 1).val; rw [e1]; omega

theorem iblk4_2_eq (c : Dev nD) (t : Fin cfg4.N) :
    (iblk4 (F := Ideal) V c 2 t : Vec Ideal S64 .f32) = V c main_arg7 := by
  obtain ⟨-, -, -, -, e0, -⟩ := idx4 t
  funext x
  unfold iblk4
  rw [View.read_apply]
  show V c main_arg7 _ = V c main_arg7 x
  congr 1
  funext a
  apply Fin.ext
  match a with
  | ⟨0, _⟩ => show win4_2.index t 0 * 64 + 1 * (x 0).val = (x 0).val; rw [e0]; omega

theorem iblk4_3_eq (c : Dev nD) (t : Fin cfg4.N) :
    (iblk4 (F := Ideal) V c 3 t : Vec Ideal S64x2 .f32) = V c main_arg8 := by
  obtain ⟨-, -, -, -, -, e0, e1, -⟩ := idx4 t
  funext x
  unfold iblk4
  rw [View.read_apply]
  show V c main_arg8 _ = V c main_arg8 x
  congr 1
  funext a
  apply Fin.ext
  match a with
  | ⟨0, _⟩ => show win4_3.index t 0 * 64 + 1 * (x 0).val = (x 0).val; rw [e0]; omega
  | ⟨1, _⟩ => show win4_3.index t 1 * 2 + 1 * (x 1).val = (x 1).val; rw [e1]; omega

theorem iblk4_4_eq (c : Dev nD) (t : Fin cfg4.N) :
    (iblk4 (F := Ideal) V c 4 t : Vec Ideal S2 .f32) = V c main_arg9 := by
  obtain ⟨-, -, -, -, -, -, -, e0, -⟩ := idx4 t
  funext x
  unfold iblk4
  rw [View.read_apply]
  show V c main_arg9 _ = V c main_arg9 x
  congr 1
  funext a
  apply Fin.ext
  match a with
  | ⟨0, _⟩ => show win4_4.index t 0 * 2 + 1 * (x 0).val = (x 0).val; rw [e0]; omega

/-- What point `t` writes back is block `t` of the decoder of the whole arrays. -/
theorem flushed4_5_eq (c : Dev nD) (t : Fin cfg4.N) :
    (dat4 (F := Ideal) V c).flushed 5 t = ((cfg4.win 5).blk t).view.read (Elt Ideal)
      (dec (R := 100000) (K := 192) (H := 64) (C := 2) (V c main_v35) (V c main_arg6) (V c main_arg7) (V c main_arg8)
        (V c main_arg9)) := by
  show (cfg4.win 5).cut (grid4.coords t) ((dat4 (F := Ideal) V c).after 5 t) = _
  rw [after4_5]
  unfold out4_5
  rw [View.canon_unit_zero hz2]
  simp only [View.ld_unit_zero (S := S4000x192) hz2, View.ld_unit_zero (S := S192x64) hz2,
    View.ld_unit_zero (S := S64) hz1, View.ld_unit_zero (S := S64x2) hz2, View.ld_unit_zero (S := S2) hz1]
  rw [pay4_eq (iblk4 V c 0 t) (iblk4 V c 1 t) (iblk4 V c 2 t) (iblk4 V c 3 t) (iblk4 V c 4 t),
    iblk4_1_eq V c t, iblk4_2_eq V c t, iblk4_3_eq V c t, iblk4_4_eq V c t]
  obtain ⟨-, -, -, -, -, -, -, -, e0, e1⟩ := idx4 t
  have hN : cfg4.N = 25 := N_4
  have ht := t.isLt
  funext j
  obtain ⟨p, q, rfl⟩ : ∃ (p : Fin 4000) (q : Fin 2), j = ix2 p q := ⟨j 0, j 1, eq_ix2 j⟩
  have hemb : ((cfg4.win 5).blk t).view.emb (ix2 p q)
      = ix2 (⟨4000 * t.val + p.val, by have := p.isLt; omega⟩ : Fin 100000) q := by
    funext a
    apply Fin.ext
    match a with
    | ⟨0, _⟩ => show win4_5.index t 0 * 4000 + 1 * p.val = 4000 * t.val + p.val; rw [e0]; omega
    | ⟨1, _⟩ => show win4_5.index t 1 * 2 + 1 * q.val = q.val; rw [e1]; omega
  rw [View.read_apply, hemb]
  exact dec_rows _ _ _ _ _ _ p _ (fun k => iblk4_0_apply V c t p k _ rfl) q

/-- Every row lies in the block of the point `row / 4000`. -/
theorem cover4_5 (i : S100000x2.Idx) :
    ∃ t : Fin cfg4.N, (cfg4.win 5).flush t = true ∧ i ∈ ((cfg4.win 5).blk t).view.set := by
  have hN : cfg4.N = 25 := N_4
  have hi0 : (i 0).val < 100000 := (i 0).isLt
  have hi1 : (i 1).val < 2 := (i 1).isLt
  obtain ⟨t, htv⟩ : ∃ t : Fin cfg4.N, t.val = (i 0).val / 4000 := ⟨⟨(i 0).val / 4000, by omega⟩, rfl⟩
  obtain ⟨-, -, -, -, -, -, -, -, e0, e1⟩ := idx4 t
  refine ⟨t, flush4_5 t, ?_⟩
  show i ∈ ((View.whole main_v36).slice (win4_5.rect t)).set
  rw [View.set_slice_whole, Rect.mem_set_unit]
  intro a
  match a with
  | ⟨0, _⟩ =>
    show win4_5.index t 0 * 4000 ≤ (i 0).val ∧ (i 0).val < win4_5.index t 0 * 4000 + 4000
    rw [e0, htv]; omega
  | ⟨1, _⟩ =>
    show win4_5.index t 1 * 2 ≤ (i 1).val ∧ (i 1).val < win4_5.index t 1 * 2 + 2
    rw [e1]; omega

/-- THE DECODER'S OUTPUT after the region: the decoder of the whole arrays. -/
theorem final4_5 (c : Dev nD) :
    (dat4 (F := Ideal) V c).arrAt 5 cfg4.N
      = dec (R := 100000) (K := 192) (H := 64) (C := 2) (V c main_v35) (V c main_arg6) (V c main_arg7) (V c main_arg8)
          (V c main_arg9) :=
  (dat4 (F := Ideal) V c).arrAt_eq_of_cover 5 _ (fun t _ => flushed4_5_eq V c t) cover4_5

end Decoder

end Cert.KernelIdeal.Hand

end
-- ==== Proof.Walk.lean ====
/-
  THE KERNEL'S PROGRAM, BOUNDARY BY BOUNDARY.

  The program is five tiled regions among stretches of host operations, and the buffer contents at each boundary are a
  fold from the launch memory: a host stretch applies its operations, a region leaves in each output array the
  whole-array function of its entry arrays that its tiles compute (the encoder, one recursion step, the combinations
  side by side, the decoder) and leaves every other buffer alone.  Walking the fold forward names every intermediate
  array as a function of the arguments as launched: the edge list's source and destination nodes, the per-node scale
  column, the encoded features, the two messages and the two steps, the joined combinations, the result.  Buffers that a
  stretch or a region does not write are carried across it unchanged.  The message (rows gathered by source node, added
  up by destination node) is kept as one function of the gathered array and is never opened.
-/
import proofs.«137019_j87943750353376_1_alg».proof.Proof.Gen.KernelIdeal.Frame
import proofs.«137019_j87943750353376_1_alg».proof.Proof.Spec
import proofs.«137019_j87943750353376_1_alg».proof.Proof.LibTypedRef
import proofs.«137019_j87943750353376_1_alg».proof.Proof.RegionSteps
import proofs.«137019_j87943750353376_1_alg».proof.Proof.RegionDense

set_option maxHeartbeats 400000
set_option maxRecDepth 16384

noncomputable section

namespace Cert.KernelIdeal.Hand

open Cert.KernelIdeal Cert.KernelIdeal.Gen Cert.PolyFilter
open Idealize.ShloMosaic Idealize.ShloMosaic.TcCoe Idealize.SL.Sem
open Idealize.ShloMosaic.Pipeline (Dat)

/-- A buffer that no operation of a host stretch writes holds after the stretch what it held before. -/
macro "stretch_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The host's terms between the regions, as functions of the edge list -/

/-- The edges' source nodes. -/
def srcK (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edges' destination nodes. -/
def dstK (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The number of edges arriving at each node. -/
def degK (e : (⟨S2x1600000, .i32⟩ : BufTy).Contents (Elt Ideal)) : FVec Ideal S100000 .f32 :=
  Host.scatterAdd (F := Ideal) (φ := .f32) scatter_S100000_S1600000x1_S1600000_n_0_0_1
    (broadcastInDim S100000 ![] bcast_S_S100000 (constant (F := Ideal) S_ .f32 0x00000000#32))
    (broadcastInDim S1600000x1 ![0] bcast_S1600000_S1600000x1_0 (dstK e))
    (broadcastInDim S1600000 ![] bcast_S_S1600000 (constant (F := Ideal) S_ .f32 0x3F800000#32))

/-- The per-node scale: the number of edges arriving at the node, at least one, to the power minus one half. -/
def scaleVecK (e : (⟨S2x1600000, .i32⟩ : BufTy).Contents (Elt Ideal)) : (⟨S100000, .f32⟩ : BufTy).Contents (Elt Ideal) :=
  Host.powf (F := Ideal)
    (maximumf (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (dstK e))
        (broadcastInDim S1600000 ![] bcast_S_S1600000 (constant (F := Ideal) S_ .f32 0x3F800000#32))))
    (broadcastInDim S100000 ![] bcast_S_S100000 (constant (F := Ideal) S_ .f32 0xBF000000#32))

/-- The scale as a column. -/
def colK (e : (⟨S2x1600000, .i32⟩ : BufTy).Contents (Elt Ideal)) : (⟨S100000x1, .f32⟩ : BufTy).Contents (Elt Ideal) :=
  shapeCast S100000x1 (scaleVecK e) shapeCasts_S100000_S100000x1

/-- The message: the rows of `g` gathered at the edges' source nodes (a negative node number wrapped by the node
    count) and added into the rows of their destination nodes, from zero. -/
def msgK (g : (⟨S100000x64, .f32⟩ : BufTy).Contents (Elt Ideal)) (e : (⟨S2x1600000, .i32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dstK e))
    (Host.gather gather_S100000x64_S1600000x1_S1600000x64_1_0_n_n_0_1_164 g
      (broadcastInDim S1600000x1 ![0] bcast_S1600000_S1600000x1_0
        (select (cmpi .slt (srcK e) (broadcastInDim S1600000 ![] bcast_S_S1600000 (constantI S_ 32 0#32)))
          (addi (srcK e) (broadcastInDim S1600000 ![] bcast_S_S1600000 (constantI S_ 32 100000#32))) (srcK e))))

section Values

variable (a0 : (⟨S100000x128, .f32⟩ : BufTy).Contents (Elt Ideal)) (e : (⟨S2x1600000, .i32⟩ : BufTy).Contents (Elt Ideal))
  (a2 : (⟨S128x64, .f32⟩ : BufTy).Contents (Elt Ideal)) (a3 : (⟨S64, .f32⟩ : BufTy).Contents (Elt Ideal)) (a4 : (⟨S64x64, .f32⟩ : BufTy).Contents (Elt Ideal)) (a5 : (⟨S64, .f32⟩ : BufTy).Contents (Elt Ideal))
  (a6 : (⟨S192x64, .f32⟩ : BufTy).Contents (Elt Ideal)) (a7 : (⟨S64, .f32⟩ : BufTy).Contents (Elt Ideal)) (a8 : (⟨S64x2, .f32⟩ : BufTy).Contents (Elt Ideal)) (a9 : (⟨S2, .f32⟩ : BufTy).Contents (Elt Ideal))

/-- The encoded features. -/
abbrev encK : (⟨S100000x64, .f32⟩ : BufTy).Contents (Elt Ideal) := enc (R := 100000) (K := 128) (H := 64) a0 a2 a3 a4 a5
/-- The features after one step. -/
abbrev f1K : (⟨S100000x64, .f32⟩ : BufTy).Contents (Elt Ideal) :=
  stepF (R := 100000) (N := 64) (encK a0 a2 a3 a4 a5) (msgK (scaleCol (encK a0 a2 a3 a4 a5) (colK e)) e) (colK e)
/-- The features after two steps. -/
abbrev f2K : (⟨S100000x64, .f32⟩ : BufTy).Contents (Elt Ideal) :=
  stepF (R := 100000) (N := 64) (f1K a0 e a2 a3 a4 a5) (msgK (scaleCol (f1K a0 e a2 a3 a4 a5) (colK e)) e) (colK e)
/-- The three combinations side by side. -/
abbrev hfinK : (⟨S100000x192, .f32⟩ : BufTy).Contents (Elt Ideal) :=
  hfin (R := 100000) (N := 64) (M := 192) rfl θw (encK a0 a2 a3 a4 a5) (f1K a0 e a2 a3 a4 a5) (f2K a0 e a2 a3 a4 a5)
/-- The result. -/
abbrev resultK : (⟨S100000x2, .f32⟩ : BufTy).Contents (Elt Ideal) :=
  dec (R := 100000) (K := 192) (H := 64) (C := 2) (hfinK a0 e a2 a3 a4 a5) a6 a7 a8 a9

end Values

variable (m : (ℓ : Loc nD τ sig) → Buf (Elt Ideal) ℓ) (ρ : Dev nD → PrngReg) (c : Dev nD)

/-! ## The three host stretches before the first region -/

theorem W3_arg0 : W3 m ρ c (Proc.devRef .tc main_arg0) = (m ((c : Thread nD τ).loc main_arg0)) := by
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = (m ((c : Thread nD τ).loc main_arg0)) := rfl

theorem W3_arg2 : W3 m ρ c (Proc.devRef .tc main_arg2) = (m ((c : Thread nD τ).loc main_arg2)) := by
  calc W3 m ρ c (Proc.devRef .tc main_arg2)
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
    _ = (m ((c : Thread nD τ).loc main_arg2)) := rfl

theorem W3_arg3 : W3 m ρ c (Proc.devRef .tc main_arg3) = (m ((c : Thread nD τ).loc main_arg3)) := by
  calc W3 m ρ c (Proc.devRef .tc main_arg3)
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = (m ((c : Thread nD τ).loc main_arg3)) := rfl

theorem W3_arg4 : W3 m ρ c (Proc.devRef .tc main_arg4) = (m ((c : Thread nD τ).loc main_arg4)) := by
  calc W3 m ρ c (Proc.devRef .tc main_arg4)
    _ = W2 m ρ c (Proc.devRef .tc main_arg4) := by stretch_keeps hostOps0_2
    _ = W1 m ρ c (Proc.devRef .tc main_arg4) := by stretch_keeps hostOps0_1
    _ = W0 m ρ c (Proc.devRef .tc main_arg4) := by stretch_keeps hostOps0
    _ = (m ((c : Thread nD τ).loc main_arg4)) := rfl

theorem W3_arg5 : W3 m ρ c (Proc.devRef .tc main_arg5) = (m ((c : Thread nD τ).loc main_arg5)) := by
  calc W3 m ρ c (Proc.devRef .tc main_arg5)
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
    _ = (m ((c : Thread nD τ).loc main_arg5)) := rfl

theorem W3_src : W3 m ρ c (Proc.devRef .tc main_v1) = srcK (m ((c : Thread nD τ).loc main_arg1)) := by
  calc W3 m ρ c (Proc.devRef .tc main_v1)
    _ = W2 m ρ c (Proc.devRef .tc main_v1) := by stretch_keeps hostOps0_2
    _ = W1 m ρ c (Proc.devRef .tc main_v1) := by stretch_keeps hostOps0_1
    _ = srcK (m ((c : Thread nD τ).loc main_arg1)) := by
      show StableHlo.after hostOps0 (W0 m ρ c) (Proc.devRef .tc main_v1) = _
      simp only [hostOps0]
      after_results
      rfl

theorem W3_dst : W3 m ρ c (Proc.devRef .tc main_v3) = dstK (m ((c : Thread nD τ).loc main_arg1)) := by
  calc W3 m ρ c (Proc.devRef .tc main_v3)
    _ = W2 m ρ c (Proc.devRef .tc main_v3) := by stretch_keeps hostOps0_2
    _ = W1 m ρ c (Proc.devRef .tc main_v3) := by stretch_keeps hostOps0_1
    _ = dstK (m ((c : Thread nD τ).loc main_arg1)) := by
      show StableHlo.after hostOps0 (W0 m ρ c) (Proc.devRef .tc main_v3) = _
      simp only [hostOps0]
      after_results
      rfl

theorem W1_deg : W1 m ρ c (Proc.devRef .tc main_v7) = degK (m ((c : Thread nD τ).loc main_arg1)) := by
  show StableHlo.after hostOps0 (W0 m ρ c) (Proc.devRef .tc main_v7) = _
  simp only [hostOps0]
  after_results
  rfl

theorem W1_one : W1 m ρ c (Proc.devRef .tc main_cst_1) = constant (F := Ideal) S_ .f32 0x3F800000#32 := by
  show StableHlo.after hostOps0 (W0 m ρ c) (Proc.devRef .tc main_cst_1) = _
  simp only [hostOps0]
  after_results

/-- The stretch that clips the degree from below, from any contents: the larger of the broadcast bound and the degree. -/
theorem clip_of (Wv : Valuation τ sig (Elt Ideal)) (one : FVec Ideal S_ .f32) (deg : FVec Ideal S100000 .f32)
    (h1 : Wv (Proc.devRef .tc main_cst_1) = one) (h7 : Wv (Proc.devRef .tc main_v7) = deg) :
    StableHlo.after hostOps0_1 Wv (Proc.devRef .tc main_v8)
      = maximumf (broadcastInDim S100000 ![] bcast_S_S100000 (id one)) deg := by
  simp only [hostOps0_1]
  after_results
  simp only [Cert.TypedRef.ofBuf_toBuf]
  refine Cert.TypedRef.toBuf_eq _ _ _ (heq_of_eq ?_)
  rw [Cert.TypedRef.ofBuf_eq _ _ one (heq_of_eq h1), Cert.TypedRef.ofBuf_eq _ _ deg (heq_of_eq h7)]

theorem W2_clip : W2 m ρ c (Proc.devRef .tc main_v8)
    = maximumf (broadcastInDim S100000 ![] bcast_S_S100000 (id (constant (F := Ideal) S_ .f32 0x3F800000#32))) (degK (m ((c : Thread nD τ).loc main_arg1))) :=
  clip_of (W1 m ρ c) _ _ (W1_one m ρ c) (W1_deg m ρ c)

/-- The last stretch before the first region, from any contents: the power and the cast to a column. -/
theorem pow_of (Wv : Valuation τ sig (Elt Ideal)) (v8 : FVec Ideal S100000 .f32) (h8 : Wv (Proc.devRef .tc main_v8) = v8) :
    StableHlo.after hostOps0_2 Wv (Proc.devRef .tc main_v11)
      = shapeCast S100000x1 (Host.powf (F := Ideal) v8 (broadcastInDim S100000 ![] bcast_S_S100000 (constant (F := Ideal) S_ .f32 0xBF000000#32)))
          shapeCasts_S100000_S100000x1 := by
  simp only [hostOps0_2]
  after_results
  rw [h8]
  rfl

/-- The per-node scale column at the first region's entry. -/
theorem W3_col : W3 m ρ c (Proc.devRef .tc main_v11) = colK (m ((c : Thread nD τ).loc main_arg1)) :=
  (pow_of (W2 m ρ c) _ (W2_clip m ρ c)).trans rfl

/-! ## The first region: the encoder -/

theorem W4_enc : W4 m ρ c (Proc.devRef .tc main_v12_0) = encK (m ((c : Thread nD τ).loc main_arg0)) (m ((c : Thread nD τ).loc main_arg2)) (m ((c : Thread nD τ).loc main_arg3)) (m ((c : Thread nD τ).loc main_arg4)) (m ((c : Thread nD τ).loc main_arg5)) := by
  refine (W4_arr m ρ c 6).trans ((final0_6 (V3 m ρ) c).trans ?_)
  show enc (W3 m ρ c (Proc.devRef .tc main_arg0)) (W3 m ρ c (Proc.devRef .tc main_arg2)) (W3 m ρ c (Proc.devRef .tc main_arg3)) (W3 m ρ c (Proc.devRef .tc main_arg4)) (W3 m ρ c (Proc.devRef .tc main_arg5)) = _
  rw [W3_arg0, W3_arg2, W3_arg3, W3_arg4, W3_arg5]

theorem W4_g0 : W4 m ρ c (Proc.devRef .tc main_v12_1)
    = scaleCol (encK (m ((c : Thread nD τ).loc main_arg0)) (m ((c : Thread nD τ).loc main_arg2)) (m ((c : Thread nD τ).loc main_arg3)) (m ((c : Thread nD τ).loc main_arg4)) (m ((c : Thread nD τ).loc main_arg5))) (colK (m ((c : Thread nD τ).loc main_arg1))) := by
  refine (W4_arr m ρ c 7).trans ((final0_7 (V3 m ρ) c).trans ?_)
  show scaleCol (enc (W3 m ρ c (Proc.devRef .tc main_arg0)) (W3 m ρ c (Proc.devRef .tc main_arg2)) (W3 m ρ c (Proc.devRef .tc main_arg3)) (W3 m ρ c (Proc.devRef .tc main_arg4)) (W3 m ρ c (Proc.devRef .tc main_arg5))) (W3 m ρ c (Proc.devRef .tc main_v11)) = _
  rw [W3_arg0, W3_arg2, W3_arg3, W3_arg4, W3_arg5, W3_col]

theorem W4_src : W4 m ρ c (Proc.devRef .tc main_v1) = srcK (m ((c : Thread nD τ).loc main_arg1)) :=
  (W4_of_ne m ρ c main_v1 (by decide)).trans (W3_src m ρ c)
theorem W4_dst : W4 m ρ c (Proc.devRef .tc main_v3) = dstK (m ((c : Thread nD τ).loc main_arg1)) :=
  (W4_of_ne m ρ c main_v3 (by decide)).trans (W3_dst m ρ c)
theorem W4_col : W4 m ρ c (Proc.devRef .tc main_v11) = colK (m ((c : Thread nD τ).loc main_arg1)) :=
  (W4_arr m ρ c 1).trans ((((dat0 (V3 m ρ) c).arrAt_in 1 rfl _).trans (A_eq0 (V3 m ρ) c 1)).trans (W3_col m ρ c))

/-! ## The first message and the second region: one step -/

theorem W5_msg : W5 m ρ c (Proc.devRef .tc main_v22)
    = msgK (scaleCol (encK (m ((c : Thread nD τ).loc main_arg0)) (m ((c : Thread nD τ).loc main_arg2)) (m ((c : Thread nD τ).loc main_arg3)) (m ((c : Thread nD τ).loc main_arg4)) (m ((c : Thread nD τ).loc main_arg5))) (colK (m ((c : Thread nD τ).loc main_arg1)))) (m ((c : Thread nD τ).loc main_arg1)) := by
  show StableHlo.after hostOps1 (W4 m ρ c) (Proc.devRef .tc main_v22) = _
  simp only [hostOps1]
  after_results
  rw [W4_src, W4_dst, W4_g0]
  unfold msgK
  rfl

theorem W5_enc : W5 m ρ c (Proc.devRef .tc main_v12_0) = encK (m ((c : Thread nD τ).loc main_arg0)) (m ((c : Thread nD τ).loc main_arg2)) (m ((c : Thread nD τ).loc main_arg3)) (m ((c : Thread nD τ).loc main_arg4)) (m ((c : Thread nD τ).loc main_arg5)) :=
  (show W5 m ρ c (Proc.devRef .tc main_v12_0) = W4 m ρ c (Proc.devRef .tc main_v12_0) by stretch_keeps hostOps1).trans (W4_enc m ρ c)
theorem W5_col : W5 m ρ c (Proc.devRef .tc main_v11) = colK (m ((c : Thread nD τ).loc main_arg1)) :=
  (show W5 m ρ c (Proc.devRef .tc main_v11) = W4 m ρ c (Proc.devRef .tc main_v11) by stretch_keeps hostOps1).trans (W4_col m ρ c)
theorem W5_src : W5 m ρ c (Proc.devRef .tc main_v1) = srcK (m ((c : Thread nD τ).loc main_arg1)) :=
  (show W5 m ρ c (Proc.devRef .tc main_v1) = W4 m ρ c (Proc.devRef .tc main_v1) by stretch_keeps hostOps1).trans (W4_src m ρ c)
theorem W5_dst : W5 m ρ c (Proc.devRef .tc main_v3) = dstK (m ((c : Thread nD τ).loc main_arg1)) :=
  (show W5 m ρ c (Proc.devRef .tc main_v3) = W4 m ρ c (Proc.devRef .tc main_v3) by stretch_keeps hostOps1).trans (W4_dst m ρ c)

theorem W6_f1 : W6 m ρ c (Proc.devRef .tc main_v23_0) = f1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((final1_3 (V5 m ρ) c).trans ?_)
  show stepF (W5 m ρ c (Proc.devRef .tc main_v12_0)) (W5 m ρ c (Proc.devRef .tc main_v22)) (W5 m ρ c (Proc.devRef .tc main_v11)) = _
  rw [W5_enc, W5_msg, W5_col]

theorem W6_g1 : W6 m ρ c (Proc.devRef .tc main_v23_1)
    = scaleCol (f1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (colK (m ((c : Thread nD τ).loc main_arg1))) := by
  refine (W6_arr m ρ c 4).trans ((final1_4 (V5 m ρ) c).trans ?_)
  show scaleCol (stepF (W5 m ρ c (Proc.devRef .tc main_v12_0)) (W5 m ρ c (Proc.devRef .tc main_v22)) (W5 m ρ c (Proc.devRef .tc main_v11))) (W5 m ρ c (Proc.devRef .tc main_v11)) = _
  rw [W5_enc, W5_msg, W5_col]

theorem W6_enc : W6 m ρ c (Proc.devRef .tc main_v12_0) = encK (m ((c : Thread nD τ).loc main_arg0)) (m ((c : Thread nD τ).loc main_arg2)) (m ((c : Thread nD τ).loc main_arg3)) (m ((c : Thread nD τ).loc main_arg4)) (m ((c : Thread nD τ).loc main_arg5)) :=
  (W6_arr m ρ c 0).trans ((((dat1 (V5 m ρ) c).arrAt_in 0 rfl _).trans (A_eq1 (V5 m ρ) c 0)).trans (W5_enc m ρ c))
theorem W6_col : W6 m ρ c (Proc.devRef .tc main_v11) = colK (m ((c : Thread nD τ).loc main_arg1)) :=
  (W6_arr m ρ c 2).trans ((((dat1 (V5 m ρ) c).arrAt_in 2 rfl _).trans (A_eq1 (V5 m ρ) c 2)).trans (W5_col m ρ c))
theorem W6_src : W6 m ρ c (Proc.devRef .tc main_v1) = srcK (m ((c : Thread nD τ).loc main_arg1)) :=
  (W6_of_ne m ρ c main_v1 (by decide)).trans (W5_src m ρ c)
theorem W6_dst : W6 m ρ c (Proc.devRef .tc main_v3) = dstK (m ((c : Thread nD τ).loc main_arg1)) :=
  (W6_of_ne m ρ c main_v3 (by decide)).trans (W5_dst m ρ c)

/-! ## The second message and the third region: the second step -/

theorem W7_msg : W7 m ρ c (Proc.devRef .tc main_v33)
    = msgK (scaleCol (f1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (colK (m ((c : Thread nD τ).loc main_arg1)))) (m ((c : Thread nD τ).loc main_arg1)) := by
  show StableHlo.after hostOps2 (W6 m ρ c) (Proc.devRef .tc main_v33) = _
  simp only [hostOps2]
  after_results
  rw [W6_src, W6_dst, W6_g1]
  unfold msgK
  rfl

theorem W7_f1 : W7 m ρ c (Proc.devRef .tc main_v23_0) = f1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show W7 m ρ c (Proc.devRef .tc main_v23_0) = W6 m ρ c (Proc.devRef .tc main_v23_0) by stretch_keeps hostOps2).trans (W6_f1 m ρ c)
theorem W7_col : W7 m ρ c (Proc.devRef .tc main_v11) = colK (m ((c : Thread nD τ).loc main_arg1)) :=
  (show W7 m ρ c (Proc.devRef .tc main_v11) = W6 m ρ c (Proc.devRef .tc main_v11) by stretch_keeps hostOps2).trans (W6_col m ρ c)
theorem W7_enc : W7 m ρ c (Proc.devRef .tc main_v12_0) = encK (m ((c : Thread nD τ).loc main_arg0)) (m ((c : Thread nD τ).loc main_arg2)) (m ((c : Thread nD τ).loc main_arg3)) (m ((c : Thread nD τ).loc main_arg4)) (m ((c : Thread nD τ).loc main_arg5)) :=
  (show W7 m ρ c (Proc.devRef .tc main_v12_0) = W6 m ρ c (Proc.devRef .tc main_v12_0) by stretch_keeps hostOps2).trans (W6_enc m ρ c)

theorem W8_f2 : W8 m ρ c (Proc.devRef .tc main_v34_0) = f2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((final2_3 (V7 m ρ) c).trans ?_)
  show stepF (W7 m ρ c (Proc.devRef .tc main_v23_0)) (W7 m ρ c (Proc.devRef .tc main_v33)) (W7 m ρ c (Proc.devRef .tc main_v11)) = _
  rw [W7_f1, W7_msg, W7_col]

theorem W8_f1 : W8 m ρ c (Proc.devRef .tc main_v23_0) = f1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 0).trans ((((dat2 (V7 m ρ) c).arrAt_in 0 rfl _).trans (A_eq2 (V7 m ρ) c 0)).trans (W7_f1 m ρ c))
theorem W8_enc : W8 m ρ c (Proc.devRef .tc main_v12_0) = encK (m ((c : Thread nD τ).loc main_arg0)) (m ((c : Thread nD τ).loc main_arg2)) (m ((c : Thread nD τ).loc main_arg3)) (m ((c : Thread nD τ).loc main_arg4)) (m ((c : Thread nD τ).loc main_arg5)) :=
  (W8_of_ne m ρ c main_v12_0 (by decide)).trans (W7_enc m ρ c)

/-! ## The fourth region: the combinations side by side -/

theorem W9_hfin : W9 m ρ c (Proc.devRef .tc main_v35) = hfinK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 3).trans ((final3_3 (V8 m ρ) c).trans ?_)
  show hfin rfl θw (W8 m ρ c (Proc.devRef .tc main_v12_0)) (W8 m ρ c (Proc.devRef .tc main_v23_0)) (W8 m ρ c (Proc.devRef .tc main_v34_0)) = _
  rw [W8_enc, W8_f1, W8_f2]

/-! ## The fifth region: the decoder -/

theorem W9_arg6 : W9 m ρ c (Proc.devRef .tc main_arg6) = (m ((c : Thread nD τ).loc main_arg6)) :=
  ((W10_arr m ρ c 1).trans (((dat4 (V9 m ρ) c).arrAt_in 1 rfl _).trans (A_eq4 (V9 m ρ) c 1))).symm.trans (W10_main_arg6 m ρ c)

theorem W9_arg7 : W9 m ρ c (Proc.devRef .tc main_arg7) = (m ((c : Thread nD τ).loc main_arg7)) :=
  ((W10_arr m ρ c 2).trans (((dat4 (V9 m ρ) c).arrAt_in 2 rfl _).trans (A_eq4 (V9 m ρ) c 2))).symm.trans (W10_main_arg7 m ρ c)

theorem W9_arg8 : W9 m ρ c (Proc.devRef .tc main_arg8) = (m ((c : Thread nD τ).loc main_arg8)) :=
  ((W10_arr m ρ c 3).trans (((dat4 (V9 m ρ) c).arrAt_in 3 rfl _).trans (A_eq4 (V9 m ρ) c 3))).symm.trans (W10_main_arg8 m ρ c)

theorem W9_arg9 : W9 m ρ c (Proc.devRef .tc main_arg9) = (m ((c : Thread nD τ).loc main_arg9)) :=
  ((W10_arr m ρ c 4).trans (((dat4 (V9 m ρ) c).arrAt_in 4 rfl _).trans (A_eq4 (V9 m ρ) c 4))).symm.trans (W10_main_arg9 m ρ c)

/-- The result buffer after the last region holds the specification's result of the arguments as launched. -/
theorem W10_result : W10 m ρ c (Proc.devRef .tc main_v36)
    = resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 5).trans ((final4_5 (V9 m ρ) c).trans ?_)
  show dec (W9 m ρ c (Proc.devRef .tc main_v35)) (W9 m ρ c (Proc.devRef .tc main_arg6)) (W9 m ρ c (Proc.devRef .tc main_arg7)) (W9 m ρ c (Proc.devRef .tc main_arg8)) (W9 m ρ c (Proc.devRef .tc main_arg9)) = _
  rw [W9_hfin, W9_arg6, W9_arg7, W9_arg8, W9_arg9]

end Cert.KernelIdeal.Hand

end
-- ==== Proof.HostStages.lean ====
/-
  THE HOST'S SPELLINGS of the specification's functions, at the ideal values, as whole arrays of any row count.

  A column `[R, 1]` broadcast across the columns and multiplied in is `scaleCol`; the same inside a subtraction is
  `stepF`; three products with constants broadcast from scalars, added in the order `(· + ·) + ·`, are `comb` at the
  constants' values (which are never evaluated); three arrays joined along the columns are `cat3`; a vector cast to a
  column is the vector broadcast to a column.  Each is read entry by entry; no sum is regrouped.
-/
import proofs.«137019_j87943750353376_1_alg».proof.Proof.Spec
import proofs.«137019_j87943750353376_1_alg».proof.Proof.LibDenseStep
import proofs.«137019_j87943750353376_1_alg».proof.Proof.LibColumn

noncomputable section

open scoped BigOperators

namespace Cert.PolyFilter

open Idealize.ShloMosaic Idealize.ShloMosaic.ValueIdx Cert.DenseRow Cert.RowBias Cert.DenseStep

/-- The specification's column product at an index given by its coordinates. -/
theorem scaleCol_apply {R N : ℕ} (y : (⟨2, ![R, N]⟩ : Shape).Idx → EReal) (d : (⟨2, ![R, 1]⟩ : Shape).Idx → EReal)
    (p : Fin R) (q : Fin N) : scaleCol y d (ix2 p q) = y (ix2 p q) * d (ix2 p (0 : Fin 1)) := rfl

/-- The specification's step at an index given by its coordinates. -/
theorem stepF_apply {R N : ℕ} (f msg : (⟨2, ![R, N]⟩ : Shape).Idx → EReal) (d : (⟨2, ![R, 1]⟩ : Shape).Idx → EReal)
    (p : Fin R) (q : Fin N) : stepF f msg d (ix2 p q) = f (ix2 p q) - msg (ix2 p q) * d (ix2 p (0 : Fin 1)) := rfl

/-- A product with a column broadcast across the columns. -/
theorem hscale {R N : ℕ} (y : FVec Ideal ⟨2, ![R, N]⟩ .f32) (d : FVec Ideal ⟨2, ![R, 1]⟩ .f32)
    (h : (⟨2, ![R, 1]⟩ : Shape).BroadcastsInDim ⟨2, ![R, N]⟩ ![0, 1]) :
    mulf y (broadcastInDim ⟨2, ![R, N]⟩ ![0, 1] h d) = scaleCol y d := by
  funext i
  obtain ⟨p, q, rfl⟩ : ∃ (p : Fin R) (q : Fin N), i = ix2 p q := ⟨i 0, i 1, eq_ix2 i⟩
  rw [mulf_apply, hbcast_col, scaleCol_apply]

/-- The features less the message times the column. -/
theorem hstep {R N : ℕ} (f msg : FVec Ideal ⟨2, ![R, N]⟩ .f32) (d : FVec Ideal ⟨2, ![R, 1]⟩ .f32)
    (h : (⟨2, ![R, 1]⟩ : Shape).BroadcastsInDim ⟨2, ![R, N]⟩ ![0, 1]) :
    subf f (mulf msg (broadcastInDim ⟨2, ![R, N]⟩ ![0, 1] h d)) = stepF f msg d := by
  funext i
  obtain ⟨p, q, rfl⟩ : ∃ (p : Fin R) (q : Fin N), i = ix2 p q := ⟨i 0, i 1, eq_ix2 i⟩
  rw [subf_apply, mulf_apply, hbcast_col, stepF_apply]

/-- Three arrays weighted by constants broadcast from scalars and added as `(· + ·) + ·`. -/
theorem hcomb {s : Shape} (w0 w1 w2 : BitVec 32) (f0 f1 f2 : FVec Ideal s .f32)
    (h : (⟨0, ![]⟩ : Shape).BroadcastsInDim s ![]) :
    addf (addf (mulf (broadcastInDim s ![] h (constant (F := Ideal) ⟨0, ![]⟩ .f32 w0)) f0)
               (mulf (broadcastInDim s ![] h (constant (F := Ideal) ⟨0, ![]⟩ .f32 w1)) f1))
         (mulf (broadcastInDim s ![] h (constant (F := Ideal) ⟨0, ![]⟩ .f32 w2)) f2)
      = comb (Ideal.ofBits .f32 w0) (Ideal.ofBits .f32 w1) (Ideal.ofBits .f32 w2) f0 f1 f2 := by
  funext i
  rw [addf_apply, addf_apply, mulf_apply, mulf_apply, mulf_apply, hconst, hconst, hconst]
  rfl

/-- A vector cast to a column is the vector broadcast to a column. -/
theorem hcolumn {A : ℕ} {α : Type} (v : (⟨1, ![A]⟩ : Shape).Idx → α) (h1 : (⟨1, ![A]⟩ : Shape).ShapeCasts ⟨2, ![A, 1]⟩)
    (h2 : (⟨1, ![A]⟩ : Shape).BroadcastsInDim ⟨2, ![A, 1]⟩ ![0]) :
    shapeCast ⟨2, ![A, 1]⟩ v h1 = broadcastInDim ⟨2, ![A, 1]⟩ ![0] h2 v := by
  funext i
  obtain ⟨p, u, rfl⟩ : ∃ (p : Fin A) (u : Fin 1), i = ix2 p u := ⟨i 0, i 1, eq_ix2 i⟩
  rw [ColumnLayout.shapeCast_a_a1_apply, hbcast_vec_col]

/-- Three arrays of `N` columns joined along the columns. -/
theorem hcat3 {R N M : ℕ} (hM : M = N + N + N) (a b c : (⟨2, ![R, N]⟩ : Shape).Idx → EReal)
    (h : Shape.Concatenates [(⟨2, ![R, N]⟩ : Shape), ⟨2, ![R, N]⟩, ⟨2, ![R, N]⟩] ⟨2, ![R, M]⟩ (1 : Fin 2)) :
    concatenate ⟨2, ![R, M]⟩ (1 : Fin 2) [⟨⟨2, ![R, N]⟩, a⟩, ⟨⟨2, ![R, N]⟩, b⟩, ⟨⟨2, ![R, N]⟩, c⟩] h = cat3 hM a b c := by
  funext i
  obtain ⟨p, k, rfl⟩ : ∃ (p : Fin R) (k : Fin M), i = ix2 p k := ⟨i 0, i 1, eq_ix2 i⟩
  have hk : k.val < N + N + N := hM ▸ k.isLt
  unfold cat3
  show _ = if h0 : k.val < N then a (ix2 p ⟨k.val, h0⟩)
    else if h1 : k.val < N + N then b (ix2 p ⟨k.val - N, by omega⟩) else c (ix2 p ⟨k.val - (N + N), by omega⟩)
  split_ifs with h0 h1
  · refine concatenate_apply_piece (t := ⟨2, ![R, M]⟩) (1 : Fin 2) [⟨⟨2, ![R, N]⟩, a⟩, ⟨⟨2, ![R, N]⟩, b⟩, ⟨⟨2, ![R, N]⟩, c⟩] h (ix2 p k) 0 (by simp) ⟨2, ![R, N]⟩ a rfl rfl 0 rfl (ix2 p ⟨k.val, h0⟩) ?_ ?_
    · intro bb hb
      match bb, hb with
      | ⟨0, _⟩, _ => rfl
      | ⟨1, _⟩, hb => exact absurd rfl hb
    · show 0 + k.val = k.val; omega
  · refine concatenate_apply_piece (t := ⟨2, ![R, M]⟩) (1 : Fin 2) [⟨⟨2, ![R, N]⟩, a⟩, ⟨⟨2, ![R, N]⟩, b⟩, ⟨⟨2, ![R, N]⟩, c⟩] h (ix2 p k) 1 (by simp) ⟨2, ![R, N]⟩ b rfl rfl N ?_ (ix2 p ⟨k.val - N, by omega⟩) ?_ ?_
    · simp
    · intro bb hb
      match bb, hb with
      | ⟨0, _⟩, _ => rfl
      | ⟨1, _⟩, hb => exact absurd rfl hb
    · show N + (k.val - N) = k.val; omega
  · refine concatenate_apply_piece (t := ⟨2, ![R, M]⟩) (1 : Fin 2) [⟨⟨2, ![R, N]⟩, a⟩, ⟨⟨2, ![R, N]⟩, b⟩, ⟨⟨2, ![R, N]⟩, c⟩] h (ix2 p k) 2 (by simp) ⟨2, ![R, N]⟩ c rfl rfl (N + N) ?_ (ix2 p ⟨k.val - (N + N), by omega⟩) ?_ ?_
    · simp
    · intro bb hb
      match bb, hb with
      | ⟨0, _⟩, _ => rfl
      | ⟨1, _⟩, hb => exact absurd rfl hb
    · show N + N + (k.val - (N + N)) = k.val; omega

end Cert.PolyFilter

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«137019_j87943750353376_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.RefStages.lean ====
/-
  THE REFERENCE, STAGE BY STAGE, IS THE SPECIFICATION.

  The reference encodes the node features, then for each of three weight triples runs the same two-step recursion
  `f ↦ f - msg(f · d) · d` from the same encoded features and combines the three snapshots; the recursion does not depend
  on the weights, so the three runs produce the same snapshots and differ only in the final combination.  Here each
  stage of the reference is identified with the specification's function of the stages before it: the encoder is two
  dense layers with rectifiers (`enc`), a product with the broadcast column is `scaleCol`, a step is `stepF`, a weighted
  sum is `comb`, the join of the three is `hfin`, the decoder is `dec`.  The message `msg` — rows gathered by source
  node and added up by destination node — is kept as ONE function of the gathered array (`msgOf`) and never opened.
-/
import proofs.«137019_j87943750353376_1_alg».proof.Proof.Gen.ReferenceIdeal.Read
import proofs.«137019_j87943750353376_1_alg».proof.Proof.HostStages
import proofs.«137019_j87943750353376_1_alg».proof.Proof.LibPlainDot

set_option maxRecDepth 16384

noncomputable section

namespace Cert.ReferenceIdeal.Hand

open Cert.ReferenceIdeal Cert.ReferenceIdeal.Read Cert.PolyFilter Cert.DenseRow Cert.RowBias
open Idealize.ShloMosaic Idealize.ShloMosaic.ValueIdx

/-- The message: the rows of `g` gathered at the (wrapped) source nodes of the edges `e` and added into the rows of
    their destination nodes, from zero. -/
def msgOf (g : FVec Ideal S100000x64 .f32) (e : (⟨S2x1600000, .i32⟩ : BufTy).Contents (Elt Ideal)) : FVec Ideal S100000x64 .f32 :=
  Host.scatterAdd (F := Ideal) (φ := .f32) scatter_S100000x64_S1600000x1_S1600000x64_1_0_0_1 (val_main_v33 (F := Ideal)) (val_main_v34 (F := Ideal) e)
    (Host.gather gather_S100000x64_S1600000x1_S1600000x64_1_0_n_n_0_1_164 g (val_main_v31 (F := Ideal) e))

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S192x64, .f32⟩ : BufTy).Contents (Elt Ideal)) (x7 : (⟨S64, .f32⟩ : BufTy).Contents (Elt Ideal))
  (x8 : (⟨S64x2, .f32⟩ : BufTy).Contents (Elt Ideal)) (x9 : (⟨S2, .f32⟩ : BufTy).Contents (Elt Ideal))

/-- The encoded features. -/
abbrev encV : (⟨S100000x64, .f32⟩ : BufTy).Contents (Elt Ideal) := enc (R := 100000) (K := 128) (H := 64) x0 x2 x3 x4 x5

/-- The per-node scale, as a column: the degree (the number of edges arriving at the node, at least one) to the
    power minus one half.  It is the same text in both programs and is never opened. -/
abbrev colV : (⟨S100000x1, .f32⟩ : BufTy).Contents (Elt Ideal) := val_main_v11 (F := Ideal) x1

/-- The features after one step. -/
abbrev f1V : (⟨S100000x64, .f32⟩ : BufTy).Contents (Elt Ideal) :=
  stepF (R := 100000) (N := 64) (encV x0 x2 x3 x4 x5) (msgOf (scaleCol (encV x0 x2 x3 x4 x5) (colV x1)) x1) (colV x1)

/-- The features after two steps. -/
abbrev f2V : (⟨S100000x64, .f32⟩ : BufTy).Contents (Elt Ideal) :=
  stepF (R := 100000) (N := 64) (f1V x0 x1 x2 x3 x4 x5) (msgOf (scaleCol (f1V x0 x1 x2 x3 x4 x5) (colV x1)) x1) (colV x1)

/-- The whole pipeline's result. -/
abbrev resultV : (⟨S100000x2, .f32⟩ : BufTy).Contents (Elt Ideal) :=
  dec (R := 100000) (K := 192) (H := 64) (C := 2)
    (hfin (R := 100000) (N := 64) (M := 192) rfl θw (encV x0 x2 x3 x4 x5) (f1V x0 x1 x2 x3 x4 x5) (f2V x0 x1 x2 x3 x4 x5)) x6 x7 x8 x9

/-! ## The encoder -/

theorem enc_stage : val_main_v21 (F := Ideal) x0 x2 x3 x4 x5 = encV x0 x2 x3 x4 x5 := by
  unfold val_main_v21 val_main_v20 val_main_v19 val_main_v18 val_main_v17 val_main_v16 val_main_v15 val_main_v14 val_main_v13
    val_main_v12 val_main_call2_v0 val_main_call2_cst val_main_call1_v0 val_main_call1_cst
  rw [show (dot_S100000x128_S128x64_S100000x64_1_0_0_1_n_n : DotDims S100000x128 S128x64 S100000x64) = DotDims.plain 100000 128 64 from rfl,
    show (dot_S100000x64_S64x64_S100000x64_1_0_0_1_n_n : DotDims S100000x64 S64x64 S100000x64) = DotDims.plain 100000 64 64 from rfl]
  rw [Cert.PlainDot.hlayer, hact, Cert.PlainDot.hlayer, hact]
  rfl

/-! ## The first weight triple's recursion: the same features again -/

theorem g0_a : val_main_v25 (F := Ideal) x0 x1 x2 x3 x4 x5 = scaleCol (encV x0 x2 x3 x4 x5) (colV x1) := by
  unfold val_main_v25 val_main_v24
  rw [enc_stage]
  exact hscale _ _ _

theorem m1_a : val_main_v35 (F := Ideal) x0 x1 x2 x3 x4 x5 = msgOf (scaleCol (encV x0 x2 x3 x4 x5) (colV x1)) x1 := by
  unfold val_main_v35 val_main_v32
  rw [g0_a]
  rfl

theorem f1_a : val_main_v38 (F := Ideal) x0 x1 x2 x3 x4 x5 = f1V x0 x1 x2 x3 x4 x5 := by
  unfold val_main_v38 val_main_v37 val_main_v36
  rw [enc_stage, m1_a]
  exact hstep _ _ _ _

theorem g1_a : val_main_v43 (F := Ideal) x0 x1 x2 x3 x4 x5 = scaleCol (f1V x0 x1 x2 x3 x4 x5) (colV x1) := by
  unfold val_main_v43 val_main_v42
  rw [f1_a]
  exact hscale _ _ _

theorem m2_a : val_main_v53 (F := Ideal) x0 x1 x2 x3 x4 x5 = msgOf (scaleCol (f1V x0 x1 x2 x3 x4 x5) (colV x1)) x1 := by
  unfold val_main_v53 val_main_v50
  rw [g1_a]
  rfl

theorem f2_a : val_main_v56 (F := Ideal) x0 x1 x2 x3 x4 x5 = f2V x0 x1 x2 x3 x4 x5 := by
  unfold val_main_v56 val_main_v55 val_main_v54
  rw [f1_a, m2_a]
  exact hstep _ _ _ _

theorem comb_a : val_main_v59 (F := Ideal) x0 x1 x2 x3 x4 x5 = comb (θw 0 0) (θw 0 1) (θw 0 2) (encV x0 x2 x3 x4 x5) (f1V x0 x1 x2 x3 x4 x5) (f2V x0 x1 x2 x3 x4 x5) := by
  unfold val_main_v59 val_main_v58 val_main_v57 val_main_cst_10 val_main_v41 val_main_v40 val_main_v39 val_main_cst_6 val_main_v23 val_main_v22 val_main_cst_3
  rw [enc_stage, f1_a, f2_a]
  exact hcomb _ _ _ _ _ _ _

/-! ## The second weight triple's recursion: the same features again -/

theorem g0_b : val_main_v63 (F := Ideal) x0 x1 x2 x3 x4 x5 = scaleCol (encV x0 x2 x3 x4 x5) (colV x1) := by
  unfold val_main_v63 val_main_v62
  rw [enc_stage]
  exact hscale _ _ _

theorem m1_b : val_main_v73 (F := Ideal) x0 x1 x2 x3 x4 x5 = msgOf (scaleCol (encV x0 x2 x3 x4 x5) (colV x1)) x1 := by
  unfold val_main_v73 val_main_v70
  rw [g0_b]
  rfl

theorem f1_b : val_main_v76 (F := Ideal) x0 x1 x2 x3 x4 x5 = f1V x0 x1 x2 x3 x4 x5 := by
  unfold val_main_v76 val_main_v75 val_main_v74
  rw [enc_stage, m1_b]
  exact hstep _ _ _ _

theorem g1_b : val_main_v81 (F := Ideal) x0 x1 x2 x3 x4 x5 = scaleCol (f1V x0 x1 x2 x3 x4 x5) (colV x1) := by
  unfold val_main_v81 val_main_v80
  rw [f1_b]
  exact hscale _ _ _

theorem m2_b : val_main_v91 (F := Ideal) x0 x1 x2 x3 x4 x5 = msgOf (scaleCol (f1V x0 x1 x2 x3 x4 x5) (colV x1)) x1 := by
  unfold val_main_v91 val_main_v88
  rw [g1_b]
  rfl

theorem f2_b : val_main_v94 (F := Ideal) x0 x1 x2 x3 x4 x5 = f2V x0 x1 x2 x3 x4 x5 := by
  unfold val_main_v94 val_main_v93 val_main_v92
  rw [f1_b, m2_b]
  exact hstep _ _ _ _

theorem comb_b : val_main_v97 (F := Ideal) x0 x1 x2 x3 x4 x5 = comb (θw 1 0) (θw 1 1) (θw 1 2) (encV x0 x2 x3 x4 x5) (f1V x0 x1 x2 x3 x4 x5) (f2V x0 x1 x2 x3 x4 x5) := by
  unfold val_main_v97 val_main_v96 val_main_v95 val_main_cst_19 val_main_v79 val_main_v78 val_main_v77 val_main_cst_15 val_main_v61 val_main_v60 val_main_cst_11
  rw [enc_stage, f1_b, f2_b]
  exact hcomb _ _ _ _ _ _ _

/-! ## The third weight triple's recursion: the same features again -/

theorem g0_c : val_main_v101 (F := Ideal) x0 x1 x2 x3 x4 x5 = scaleCol (encV x0 x2 x3 x4 x5) (colV x1) := by
  unfold val_main_v101 val_main_v100
  rw [enc_stage]
  exact hscale _ _ _

theorem m1_c : val_main_v111 (F := Ideal) x0 x1 x2 x3 x4 x5 = msgOf (scaleCol (encV x0 x2 x3 x4 x5) (colV x1)) x1 := by
  unfold val_main_v111 val_main_v108
  rw [g0_c]
  rfl

theorem f1_c : val_main_v114 (F := Ideal) x0 x1 x2 x3 x4 x5 = f1V x0 x1 x2 x3 x4 x5 := by
  unfold val_main_v114 val_main_v113 val_main_v112
  rw [enc_stage, m1_c]
  exact hstep _ _ _ _

theorem g1_c : val_main_v119 (F := Ideal) x0 x1 x2 x3 x4 x5 = scaleCol (f1V x0 x1 x2 x3 x4 x5) (colV x1) := by
  unfold val_main_v119 val_main_v118
  rw [f1_c]
  exact hscale _ _ _

theorem m2_c : val_main_v129 (F := Ideal) x0 x1 x2 x3 x4 x5 = msgOf (scaleCol (f1V x0 x1 x2 x3 x4 x5) (colV x1)) x1 := by
  unfold val_main_v129 val_main_v126
  rw [g1_c]
  rfl

theorem f2_c : val_main_v132 (F := Ideal) x0 x1 x2 x3 x4 x5 = f2V x0 x1 x2 x3 x4 x5 := by
  unfold val_main_v132 val_main_v131 val_main_v130
  rw [f1_c, m2_c]
  exact hstep _ _ _ _

theorem comb_c : val_main_v135 (F := Ideal) x0 x1 x2 x3 x4 x5 = comb (θw 2 0) (θw 2 1) (θw 2 2) (encV x0 x2 x3 x4 x5) (f1V x0 x1 x2 x3 x4 x5) (f2V x0 x1 x2 x3 x4 x5) := by
  unfold val_main_v135 val_main_v134 val_main_v133 val_main_cst_28 val_main_v117 val_main_v116 val_main_v115 val_main_cst_24 val_main_v99 val_main_v98 val_main_cst_20
  rw [enc_stage, f1_c, f2_c]
  exact hcomb _ _ _ _ _ _ _

/-! ## The join and the decoder -/

theorem hfin_stage : val_main_v136 (F := Ideal) x0 x1 x2 x3 x4 x5
    = hfin (R := 100000) (N := 64) (M := 192) rfl θw (encV x0 x2 x3 x4 x5) (f1V x0 x1 x2 x3 x4 x5) (f2V x0 x1 x2 x3 x4 x5) := by
  unfold val_main_v136
  rw [comb_a, comb_b, comb_c]
  exact hcat3 (R := 100000) (N := 64) (M := 192) rfl _ _ _ _

/-- The reference's result is the specification's. -/
theorem result_stage : val_main_v145 (F := Ideal) x0 x1 x2 x3 x4 x5 x6 x7 x8 x9 = resultV x0 x1 x2 x3 x4 x5 x6 x7 x8 x9 := by
  unfold val_main_v145 val_main_v144 val_main_v143 val_main_v142 val_main_v141 val_main_v140 val_main_v139 val_main_v138 val_main_v137
    val_main_call3_v0 val_main_call3_cst
  rw [hfin_stage]
  rw [show (dot_S100000x192_S192x64_S100000x64_1_0_0_1_n_n : DotDims S100000x192 S192x64 S100000x64) = DotDims.plain 100000 192 64 from rfl,
    show (dot_S100000x64_S64x2_S100000x2_1_0_0_1_n_n : DotDims S100000x64 S64x2 S100000x2) = DotDims.plain 100000 64 2 from rfl]
  rw [Cert.PlainDot.hlayer, hact, Cert.PlainDot.hlayer]
  rfl

end Cert.ReferenceIdeal.Hand

end
-- ==== Proof.Bridge.lean ====
/-
  THE TWO PROGRAMS MEET.

  The kernel's program and the reference apply the same host operations to the edge list — the source and destination
  nodes, the degree clipped below by one and raised to the power minus one half, the message (gather by source, add up
  by destination) — so those terms are the same by unfolding.  One layout difference remains: the kernel's program
  reshapes the per-node scale into a column, the reference broadcasts it into one; a vector cast to a column is the vector
  broadcast to a column.  Hence the two statements of the pipeline's result are one function of the arguments.
-/
import proofs.«137019_j87943750353376_1_alg».proof.Proof.Walk
import proofs.«137019_j87943750353376_1_alg».proof.Proof.RefStages

set_option maxRecDepth 16384
set_option maxHeartbeats 400000

noncomputable section

namespace Cert.Proof.Bridge

open Cert.PolyFilter Idealize.ShloMosaic Idealize.ShloMosaic.ValueIdx

variable (e : (⟨Cert.KernelIdeal.S2x1600000, .i32⟩ : BufTy).Contents (Elt Ideal))

/-- The scale vector is the same term in both programs. -/
theorem vec_eq : Cert.KernelIdeal.Hand.scaleVecK e = Cert.ReferenceIdeal.Read.val_main_v10 (F := Ideal) e := rfl

/-- The scale column: a cast to a column against a broadcast to a column. -/
theorem col_eq : Cert.KernelIdeal.Hand.colK e = Cert.ReferenceIdeal.Hand.colV e := by
  show shapeCast Cert.KernelIdeal.S100000x1 (Cert.KernelIdeal.Hand.scaleVecK e) _
    = broadcastInDim Cert.ReferenceIdeal.S100000x1 ![0] _ (Cert.ReferenceIdeal.Read.val_main_v10 (F := Ideal) e)
  rw [vec_eq]
  exact hcolumn (A := 100000) _ _ _

/-- The message is the same term in both programs. -/
theorem msg_eq (g : FVec Ideal Cert.KernelIdeal.S100000x64 .f32) : Cert.KernelIdeal.Hand.msgK g e = Cert.ReferenceIdeal.Hand.msgOf g e := rfl

variable (a0 : (⟨Cert.KernelIdeal.S100000x128, .f32⟩ : BufTy).Contents (Elt Ideal))
  (a2 : (⟨Cert.KernelIdeal.S128x64, .f32⟩ : BufTy).Contents (Elt Ideal)) (a3 : (⟨Cert.KernelIdeal.S64, .f32⟩ : BufTy).Contents (Elt Ideal)) (a4 : (⟨Cert.KernelIdeal.S64x64, .f32⟩ : BufTy).Contents (Elt Ideal)) (a5 : (⟨Cert.KernelIdeal.S64, .f32⟩ : BufTy).Contents (Elt Ideal))
  (a6 : (⟨Cert.KernelIdeal.S192x64, .f32⟩ : BufTy).Contents (Elt Ideal)) (a7 : (⟨Cert.KernelIdeal.S64, .f32⟩ : BufTy).Contents (Elt Ideal)) (a8 : (⟨Cert.KernelIdeal.S64x2, .f32⟩ : BufTy).Contents (Elt Ideal)) (a9 : (⟨Cert.KernelIdeal.S2, .f32⟩ : BufTy).Contents (Elt Ideal))

/-- The result as the kernel's program states it is the result as the reference states it. -/
theorem result_eq : Cert.KernelIdeal.Hand.resultK a0 e a2 a3 a4 a5 a6 a7 a8 a9 = Cert.ReferenceIdeal.Hand.resultV a0 e a2 a3 a4 a5 a6 a7 a8 a9 := by
  simp only [Cert.KernelIdeal.Hand.resultK, Cert.KernelIdeal.Hand.hfinK, Cert.KernelIdeal.Hand.f2K, Cert.KernelIdeal.Hand.f1K, Cert.KernelIdeal.Hand.encK, Cert.ReferenceIdeal.Hand.resultV, Cert.ReferenceIdeal.Hand.f2V, Cert.ReferenceIdeal.Hand.f1V, Cert.ReferenceIdeal.Hand.encV,
    msg_eq, col_eq]

end Cert.Proof.Bridge

end
-- ==== Proof.lean ====
/-
  A polynomial graph filter over node features: the tiled kernel program against its plain reference, equal as
  extended reals.

  Both programs encode each node's features by two dense layers with rectifiers, run twice the recursion
  `f ↦ f - msg(f · d) · d` — `d` the per-node scale (in-degree, at least one, to the power minus one half) kept as a
  column, `msg` the rows gathered at the edges' source nodes and added up at their destination nodes —, combine the three
  feature snapshots with three fixed weight triples laid side by side, and decode each row by a dense layer, a rectifier
  and a dense layer.  The kernel program computes the recursion once, tile by tile (4000 rows at a time), and combines at
  the end; the reference recomputes it for each weight triple.  The recursion does not depend on the weights, every
  dense layer contracts a whole row inside one tile, and each operation acts row by row, so both results are ONE function
  of the arguments: no sum is regrouped, no law of the extended reals beyond reflexivity is used, and the precondition
  (finite inputs) is never opened.  The kernel program's bf16 casts are the identity at the ideal values.

  The pieces: the specification as whole-array functions generic in the row count (Spec); each region's output array
  as that function of its entry arrays (RegionDense, RegionSteps); the run with its result named and the fold of the
  program walked boundary by boundary (RunResult, Walk); the reference stage by stage (RefStages, over the host's
  spellings in HostStages); the two statements of the result identified (Bridge).  The three frames are the generated
  frame proofs; the idealization rewrote no operation, so there is nothing to preserve.
-/
import proofs.«137019_j87943750353376_1_alg».proof.Defs
import proofs.«137019_j87943750353376_1_alg».proof.Proof.Gen.Kernel
import proofs.«137019_j87943750353376_1_alg».proof.Proof.Gen.Kernel.Frame
import proofs.«137019_j87943750353376_1_alg».proof.Proof.Gen.KernelIdeal
import proofs.«137019_j87943750353376_1_alg».proof.Proof.Gen.KernelIdeal.Frame
import proofs.«137019_j87943750353376_1_alg».proof.Proof.Gen.ReferenceIdeal
import proofs.«137019_j87943750353376_1_alg».proof.Proof.Gen.Pre_finite_inputs
import proofs.«137019_j87943750353376_1_alg».proof.Proof.Gen.ReferenceIdeal.Run
import proofs.«137019_j87943750353376_1_alg».proof.Proof.Gen.ReferenceIdeal.Read
import proofs.«137019_j87943750353376_1_alg».proof.Proof.RunResult
import proofs.«137019_j87943750353376_1_alg».proof.Proof.Walk
import proofs.«137019_j87943750353376_1_alg».proof.Proof.RefStages
import proofs.«137019_j87943750353376_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the specification's result of those
    arguments in their result buffers. -/
theorem algebraic : Cert.algebraic_KernelIdeal_ReferenceIdeal := by
  intro m ρ m' ρ' _ hagree
  refine ⟨fun c => Cert.KernelIdeal.Hand.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Hand.W10_result m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v145_eq, Cert.ReferenceIdeal.Hand.result_stage, e0, e1, e2, e3, e4, e5, e6, e7, e8, e9]
    exact (Cert.Proof.Bridge.result_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
